-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v15_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2x1024 : Shape := ⟨3, ![2048, 2, 1024]⟩
abbrev S2x2048x2048 : Shape := ⟨3, ![2, 2048, 2048]⟩
abbrev S1024x1024 : Shape := ⟨2, ![1024, 1024]⟩
abbrev S1024 : Shape := ⟨1, ![1024]⟩
abbrev S_ : Shape := ⟨0, ![]⟩

class Facts : Prop where
  bcast_S_S2048x2x1024 : S_.BroadcastsInDim S2048x2x1024 (![] : Fin 0 → Fin S2048x2x1024.rank)
  reducesTo_S2048x2x1024_S_d0_1_2 : S2048x2x1024.ReducesTo [0, 1, 2] S_
  h_S_ : 0 < S_.numel
  bcast_S_S2x2048x2048 : S_.BroadcastsInDim S2x2048x2048 (![] : Fin 0 → Fin S2x2048x2048.rank)
  reducesTo_S2x2048x2048_S_d0_1_2 : S2x2048x2048.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S1024x1024 .f32) (main_arg9 : FVec F S1024 .f32) (main_arg10 : FVec F S1024x1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_v48 main_v49 main_v50

def fn_part1 {F : FTy → Type} [FloatOps F] (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_v13 : IVec S_ 1) (main_v16 : IVec S2x2048x2048 1) : IVec S_ 1 :=
  let main_c_5 : IVec S_ 1 := constantI S_ 1 1#1
  let main_v17 : IVec S_ 1 := (fun x v => Host.reduce IntOp.andi x v reducesTo_S2x2048x2048_S_d0_1_2 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2048x2x1024 .f32) (main_arg1 : FVec F S2048x2x1024 .f32) (main_arg2 : FVec F S2048x2x1024 .f32) (main_arg3 : FVec F S2x2048x2048 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) : IVec S_ 1 :=
  let main_v0 : FVec F S2048x2x1024 .f32 := Host.absf main_arg0
  let main_cst : FVec F S_ .f32 := constant S_ .f32 0x7F800000#32
  let main_v1 : FVec F S2048x2x1024 .f32 := broadcastInDim S2048x2x1024 ![] bcast_S_S2048x2x1024 main_cst
  let main_v2 : IVec S2048x2x1024 1 := cmpf .olt main_v0 main_v1
  let main_c : IVec S_ 1 := constantI S_ 1 1#1
  let main_v3 : IVec S_ 1 := (fun x v => Host.reduce IntOp.andi x v reducesTo_S2048x2x1024_S_d0_1_2 h_S_) main_v2 main_c
  let main_v4 : FVec F S2048x2x1024 .f32 := Host.absf main_arg1
  let main_cst_0 : FVec F S_ .f32 := constant S_ .f32 0x7F800000#32
  let main_v5 : FVec F S2048x2x1024 .f32 := broadcastInDim S2048x2x1024 ![] bcast_S_S2048x2x1024 main_cst_0
  let main_v6 : IVec S2048x2x1024 1 := cmpf .olt main_v4 main_v5
  let main_c_1 : IVec S_ 1 := constantI S_ 1 1#1
  let main_v7 : IVec S_ 1 := (fun x v => Host.reduce IntOp.andi x v reducesTo_S2048x2x1024_S_d0_1_2 h_S_) main_v6 main_c_1
  let main_v8 : IVec S_ 1 := andi main_v3 main_v7
  let main_v9 : FVec F S2048x2x1024 .f32 := Host.absf main_arg2
  let main_cst_2 : FVec F S_ .f32 := constant S_ .f32 0x7F800000#32
  let main_v10 : FVec F S2048x2x1024 .f32 := broadcastInDim S2048x2x1024 ![] bcast_S_S2048x2x1024 main_cst_2
  let main_v11 : IVec S2048x2x1024 1 := cmpf .olt main_v9 main_v10
  let main_c_3 : IVec S_ 1 := constantI S_ 1 1#1
  let main_v12 : IVec S_ 1 := (fun x v => Host.reduce IntOp.andi x v reducesTo_S2048x2x1024_S_d0_1_2 h_S_) main_v11 main_c_3
  let main_v13 : IVec S_ 1 := andi main_v8 main_v12
  let main_v14 : FVec F S2x2048x2048 .f32 := Host.absf main_arg3
  let main_cst_4 : FVec F S_ .f32 := constant S_ .f32 0x7F800000#32
  let main_v15 : FVec F S2x2048x2048 .f32 := broadcastInDim S2x2048x2048 ![] bcast_S_S2x2048x2048 main_cst_4
  let main_v16 : IVec S2x2048x2048 1 := cmpf .olt main_v14 main_v15
  fn_part1 (F := F) main_arg4 main_arg5 main_arg6 main_arg7 main_arg8 main_arg9 main_arg10 main_arg11 main_v13 main_v16
-- ==== Kernel.lean ====
abbrev S2048x2x1024 : Shape := ⟨3, ![2048, 2, 1024]⟩
abbrev S2x2048x2048 : Shape := ⟨3, ![2, 2048, 2048]⟩
abbrev S1024x1024 : Shape := ⟨2, ![1024, 1024]⟩
abbrev S1024 : Shape := ⟨1, ![1024]⟩
abbrev S4096x1024 : Shape := ⟨2, ![4096, 1024]⟩
abbrev S1x1024 : Shape := ⟨2, ![1, 1024]⟩
abbrev S512x1024 : Shape := ⟨2, ![512, 1024]⟩
abbrev S2048x2x16x64 : Shape := ⟨4, ![2048, 2, 16, 64]⟩
abbrev S2x16x2048x64 : Shape := ⟨4, ![2, 16, 2048, 64]⟩
abbrev S1x16x64x64 : Shape := ⟨4, ![1, 16, 64, 64]⟩
abbrev S1x16x2048x64 : Shape := ⟨4, ![1, 16, 2048, 64]⟩
abbrev S1x64x2048 : Shape := ⟨3, ![1, 64, 2048]⟩
abbrev S16x64x64 : Shape := ⟨3, ![16, 64, 64]⟩
abbrev S16x2048x64 : Shape := ⟨3, ![16, 2048, 64]⟩
abbrev S16x64x2048 : Shape := ⟨3, ![16, 64, 2048]⟩
abbrev S64x2048 : Shape := ⟨2, ![64, 2048]⟩
abbrev S16x64 : Shape := ⟨2, ![16, 64]⟩
abbrev S16x64x1 : Shape := ⟨3, ![16, 64, 1]⟩

abbrev nBuf : Space → Nat
  | .hbm => 34
  | .vmem => 34
  | .smem => 0
  | _ => 0

abbrev bufTy : (tb : Table) → Fin (tcTables nBuf tb) → BufTy
  | .hbm, ⟨0, _⟩ => ⟨S2048x2x1024, .f32⟩
  | .hbm, ⟨1, _⟩ => ⟨S2048x2x1024, .f32⟩
  | .hbm, ⟨2, _⟩ => ⟨S2048x2x1024, .f32⟩
  | .hbm, ⟨3, _⟩ => ⟨S2x2048x2048, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .bf16⟩
  | .hbm, ⟨17, _⟩ => ⟨S1x1024, .f32⟩
  | .hbm, ⟨18, _⟩ => ⟨S4096x1024, .bf16⟩
  | .hbm, ⟨19, _⟩ => ⟨S1x1024, .f32⟩
  | .hbm, ⟨20, _⟩ => ⟨S4096x1024, .bf16⟩
  | .hbm, ⟨21, _⟩ => ⟨S2048x2x16x64, .bf16⟩
  | .hbm, ⟨22, _⟩ => ⟨S2x16x2048x64, .bf16⟩
  | .hbm, ⟨23, _⟩ => ⟨S2048x2x16x64, .bf16⟩
  | .hbm, ⟨24, _⟩ => ⟨S2x16x2048x64, .bf16⟩
  | .hbm, ⟨25, _⟩ => ⟨S2048x2x16x64, .bf16⟩
  | .hbm, ⟨26, _⟩ => ⟨S2x16x2048x64, .bf16⟩
  | .hbm, ⟨27, _⟩ => ⟨S2x16x2048x64, .f32⟩
  | .hbm, ⟨28, _⟩ => ⟨S2x2048x2048, .f32⟩
  | .hbm, ⟨29, _⟩ => ⟨S2048x2x16x64, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S2048x2x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1024x1024, .f32⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S1024x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S1x16x64x64, .bf16⟩
  | .local _ .vmem, ⟨19, _⟩ => ⟨S1x16x64x64, .bf16⟩
  | .local _ .vmem, ⟨20, _⟩ => ⟨S1x16x2048x64, .bf16⟩
  | .local _ .vmem, ⟨21, _⟩ => ⟨S1x16x2048x64, .bf16⟩
  | .local _ .vmem, ⟨22, _⟩ => ⟨S1x64x2048, .f32⟩
  | .local _ .vmem, ⟨23, _⟩ => ⟨S1x64x2048, .f32⟩
  | .local _ .vmem, ⟨24, _⟩ => ⟨S1x16x64x64, .f32⟩
  | .local _ .vmem, ⟨25, _⟩ => ⟨S1x16x64x64, .f32⟩
  | .local _ .vmem, ⟨26, _⟩ => ⟨S1x64x2048, .f32⟩
  | .local _ .vmem, ⟨27, _⟩ => ⟨S1x64x2048, .f32⟩
  | .local _ .vmem, ⟨28, _⟩ => ⟨S512x1024, .f32⟩
  | .local _ .vmem, ⟨29, _⟩ => ⟨S512x1024, .f32⟩
  | .local _ .vmem, ⟨30, _⟩ => ⟨S1024x1024, .f32⟩
  | .local _ .vmem, ⟨31, _⟩ => ⟨S1x1024, .f32⟩
  | .local _ .vmem, ⟨32, _⟩ => ⟨S512x1024, .f32⟩
  | .local _ .vmem, ⟨33, _⟩ => ⟨S512x1024, .f32⟩
  | _, _ => ⟨S2048x2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc3_stg4_0 : Ref sig .tc := ⟨.vmem, 24, rfl⟩
abbrev cc3_stg4_1 : Ref sig .tc := ⟨.vmem, 25, rfl⟩
abbrev cc3_stg5_0 : Ref sig .tc := ⟨.vmem, 26, rfl⟩
abbrev cc3_stg5_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc3_sem4_0 : DmaSem sig := 24
abbrev cc3_sem4_1 : DmaSem sig := 25
abbrev cc3_sem5_0 : DmaSem sig := 26
abbrev cc3_sem5_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 32], ![false, false]⟩

def cc3_transform_0 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x16x64x64 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S1x16x2048x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![true, false]

abbrev stage3_2 : Fin 1 → Memref sig .tc .vmem S1x16x2048x64 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev stage3_3 : Fin 2 → Memref sig .tc .vmem S1x64x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x16x64x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x64x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S512x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S512x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S2048x2x1024_S4096x1024 : S2048x2x1024.ShapeCasts S4096x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S4096x1024_S2048x2x16x64 : S4096x1024.ShapeCasts S2048x2x16x64
  transposes_S2048x2x16x64_S2x16x2048x64_1_2_0_3 : S2048x2x16x64.Transposes [1, 2, 0, 3] S2x16x2048x64
  inb_S1x16x64x64_S1x16x64x64_0_0_0_0 : ∀ a, (![0, 0, 0, 0] : Fin 4 → Nat) a + S1x16x64x64.size a ≤ S1x16x64x64.size a
  h_S1x16x64x64 : 0 < S1x16x64x64.numel
  shapeCasts_S1x16x64x64_S16x64x64 : S1x16x64x64.ShapeCasts S16x64x64
  inb_S1x16x2048x64_S1x16x2048x64_0_0_0_0 : ∀ a, (![0, 0, 0, 0] : Fin 4 → Nat) a + S1x16x2048x64.size a ≤ S1x16x2048x64.size a
  h_S1x16x2048x64 : 0 < S1x16x2048x64.numel
  shapeCasts_S1x16x2048x64_S16x2048x64 : S1x16x2048x64.ShapeCasts S16x2048x64
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  shapeCasts_S64x2048_S1x64x2048 : S64x2048.ShapeCasts S1x64x2048
  broadcasts_S1x64x2048_S16x64x2048 : S1x64x2048.Broadcasts S16x64x2048
  reduces_S16x64x2048_S16x64 : S16x64x2048.Reduces [2] S16x64
  shapeCasts_S16x64_S16x64x1 : S16x64.ShapeCasts S16x64x1
  broadcasts_S16x64x1_S16x64x2048 : S16x64x1.Broadcasts S16x64x2048
  shapeCasts_S16x64x64_S1x16x64x64 : S16x64x64.ShapeCasts S1x16x64x64
  reduces_S16x64x2048_S64x2048 : S16x64x2048.Reduces [0] S64x2048
  transposes_S2x16x2048x64_S2048x2x16x64_2_0_1_3 : S2x16x2048x64.Transposes [2, 0, 1, 3] S2048x2x16x64
  shapeCasts_S2048x2x16x64_S4096x1024 : S2048x2x16x64.ShapeCasts S4096x1024
  shapeCasts_S4096x1024_S2048x2x1024 : S4096x1024.ShapeCasts S2048x2x1024
  dot_S512x1024_S1024x1024_S512x1024_1_1_0_0_n_n_wf : DotDims.WF S512x1024 S1024x1024 S512x1024 [1] [1] [0] [0] [] []
  dot_S16x64x64_S16x2048x64_S16x64x2048_2_2_1_1_0_0_wf : DotDims.WF S16x64x64 S16x2048x64 S16x64x2048 [2] [2] [1] [1] [0] [0]
  dot_S16x64x2048_S16x2048x64_S16x64x64_2_1_1_2_0_0_wf : DotDims.WF S16x64x2048 S16x2048x64 S16x64x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .bf16 = 32 ∨ (Rect.block (s := S4096x1024) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .f32 = 32 ∨ (Rect.block (s := S4096x1024) S512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .bf16 = 32 ∨ (Rect.block (s := S4096x1024) S512x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x16x64x64.size a ≤ S2x16x2048x64.size a
  hwx3_0 : ∀ i : grid3.Coords, EltTy.bits .bf16 = 32 ∨ (Rect.block (s := S2x16x2048x64) S1x16x64x64.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16x2048x64.size a ≤ S2x16x2048x64.size a
  hwx3_1 : ∀ i : grid3.Coords, EltTy.bits .bf16 = 32 ∨ (Rect.block (s := S2x16x2048x64) S1x16x2048x64.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16x2048x64.size a ≤ S2x16x2048x64.size a
  hwx3_2 : ∀ i : grid3.Coords, EltTy.bits .bf16 = 32 ∨ (Rect.block (s := S2x16x2048x64) S1x16x2048x64.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x64x2048.size a ≤ S2x2048x2048.size a
  hwx3_3 : ∀ i : grid3.Coords, EltTy.bits .f32 = 32 ∨ (Rect.block (s := S2x2048x2048) S1x64x2048.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S1x16x64x64.size a ≤ S2x16x2048x64.size a
  hwx3_4 : ∀ i : grid3.Coords, EltTy.bits .f32 = 32 ∨ (Rect.block (s := S2x16x2048x64) S1x16x64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1x64x2048.size a ≤ S2x2048x2048.size a
  hwx3_5 : ∀ i : grid3.Coords, EltTy.bits .f32 = 32 ∨ (Rect.block (s := S2x2048x2048) S1x64x2048.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S4096x1024.size a
  hwx4_0 : ∀ i : grid4.Coords, EltTy.bits .f32 = 32 ∨ (Rect.block (s := S4096x1024) S512x1024.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .f32 = 32 ∨ (Rect.block (s := S1024x1024) S1024x1024.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1024.size a ≤ S1x1024.size a
  hwx4_2 : ∀ i : grid4.Coords, EltTy.bits .f32 = 32 ∨ (Rect.block (s := S1x1024) S1x1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x1024.size a ≤ S4096x1024.size a
  hwx4_3 : ∀ i : grid4.Coords, EltTy.bits .f32 = 32 ∨ (Rect.block (s := S4096x1024) S512x1024.size (cc4_transform_3 i) (hinb4_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S16x64x64_S16x2048x64_S16x64x2048_2_2_1_1_0_0 : DotDims S16x64x64 S16x2048x64 S16x64x2048 where
  lhsContracting := [2]
  rhsContracting := [2]
  lhsNonContracting := [1]
  rhsNonContracting := [1]
  lhsBatch := [0]
  rhsBatch := [0]
  wf := dot_S16x64x64_S16x2048x64_S16x64x2048_2_2_1_1_0_0_wf
def dot_S16x64x2048_S16x2048x64_S16x64x64_2_1_1_2_0_0 : DotDims S16x64x2048 S16x2048x64 S16x64x64 where
  lhsContracting := [2]
  rhsContracting := [1]
  lhsNonContracting := [1]
  rhsNonContracting := [2]
  lhsBatch := [0]
  rhsBatch := [0]
  wf := dot_S16x64x2048_S16x2048x64_S16x64x64_2_1_1_2_0_0_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v7) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v10) S1x16x64x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S1x16x2048x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v14) S1x16x2048x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S1x64x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v15_0) S1x16x64x64.size cc3_transform_4 reads3_4 true false 2 stage3_4 sem3_4
    hrank3 hreads3_4 hinb3_4 nbuf3_4 (Memref.isWhole_whole _) hwx3_4 hstage3_4

abbrev win3_5 : Pipeline.Window sig grid3 :=
  Pipeline.Window.ofSpec (Memref.whole main_v15_1) S1x64x2048.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v17) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v18) S1x1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v19) S512x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S2048x2x1024 : Shape := ⟨3, ![2048, 2, 1024]⟩
abbrev S2x2048x2048 : Shape := ⟨3, ![2, 2048, 2048]⟩
abbrev S1024x1024 : Shape := ⟨2, ![1024, 1024]⟩
abbrev S1024 : Shape := ⟨1, ![1024]⟩
abbrev S1x1x1024 : Shape := ⟨3, ![1, 1, 1024]⟩
abbrev S2048x2x16x64 : Shape := ⟨4, ![2048, 2, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x1x2048x2048 : Shape := ⟨4, ![2, 1, 2048, 2048]⟩
abbrev S2x16x2048 : Shape := ⟨3, ![2, 16, 2048]⟩
abbrev S2x16x2048x1 : Shape := ⟨4, ![2, 16, 2048, 1]⟩

abbrev nBuf : Space → Nat
  | .hbm => 63
  | .vmem => 0
  | .smem => 0
  | _ => 0

abbrev bufTy : (tb : Table) → Fin (tcTables nBuf tb) → BufTy
  | .hbm, ⟨0, _⟩ => ⟨S2048x2x1024, .f32⟩
  | .hbm, ⟨1, _⟩ => ⟨S2048x2x1024, .f32⟩
  | .hbm, ⟨2, _⟩ => ⟨S2048x2x1024, .f32⟩
  | .hbm, ⟨3, _⟩ => ⟨S2x2048x2048, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S2048x2x1024, .f32⟩
  | .hbm, ⟨13, _⟩ => ⟨S1x1x1024, .f32⟩
  | .hbm, ⟨14, _⟩ => ⟨S2048x2x1024, .f32⟩
  | .hbm, ⟨15, _⟩ => ⟨S2048x2x1024, .f32⟩
  | .hbm, ⟨16, _⟩ => ⟨S2048x2x16x64, .f32⟩
  | .hbm, ⟨17, _⟩ => ⟨S2x16x2048x64, .f32⟩
  | .hbm, ⟨18, _⟩ => ⟨S2048x2x1024, .f32⟩
  | .hbm, ⟨19, _⟩ => ⟨S1x1x1024, .f32⟩
  | .hbm, ⟨20, _⟩ => ⟨S2048x2x1024, .f32⟩
  | .hbm, ⟨21, _⟩ => ⟨S2048x2x1024, .f32⟩
  | .hbm, ⟨22, _⟩ => ⟨S2048x2x16x64, .f32⟩
  | .hbm, ⟨23, _⟩ => ⟨S2x16x2048x64, .f32⟩
  | .hbm, ⟨24, _⟩ => ⟨S2048x2x1024, .f32⟩
  | .hbm, ⟨25, _⟩ => ⟨S1x1x1024, .f32⟩
  | .hbm, ⟨26, _⟩ => ⟨S2048x2x1024, .f32⟩
  | .hbm, ⟨27, _⟩ => ⟨S2048x2x1024, .f32⟩
  | .hbm, ⟨28, _⟩ => ⟨S2048x2x16x64, .f32⟩
  | .hbm, ⟨29, _⟩ => ⟨S2x16x2048x64, .f32⟩
  | .hbm, ⟨30, _⟩ => ⟨S2x16x2048x2048, .f32⟩
  | .hbm, ⟨31, _⟩ => ⟨S_, .f32⟩
  | .hbm, ⟨32, _⟩ => ⟨S2x16x2048x2048, .f32⟩
  | .hbm, ⟨33, _⟩ => ⟨S2x16x2048x2048, .f32⟩
  | .hbm, ⟨34, _⟩ => ⟨S2x1x2048x2048, .f32⟩
  | .hbm, ⟨35, _⟩ => ⟨S2x16x2048x2048, .f32⟩
  | .hbm, ⟨36, _⟩ => ⟨S2x16x2048x2048, .f32⟩
  | .hbm, ⟨37, _⟩ => ⟨S_, .f32⟩
  | .hbm, ⟨38, _⟩ => ⟨S2x16x2048, .f32⟩
  | .hbm, ⟨39, _⟩ => ⟨S_, .f32⟩
  | .hbm, ⟨40, _⟩ => ⟨S2x16x2048, .f32⟩
  | .hbm, ⟨41, _⟩ => ⟨S2x16x2048, .f32⟩
  | .hbm, ⟨42, _⟩ => ⟨S2x16x2048x1, .f32⟩
  | .hbm, ⟨43, _⟩ => ⟨S2x16x2048x2048, .f32⟩
  | .hbm, ⟨44, _⟩ => ⟨S2x16x2048x2048, .f32⟩
  | .hbm, ⟨45, _⟩ => ⟨S2x16x2048x2048, .f32⟩
  | .hbm, ⟨46, _⟩ => ⟨S_, .f32⟩
  | .hbm, ⟨47, _⟩ => ⟨S2x16x2048, .f32⟩
  | .hbm, ⟨48, _⟩ => ⟨S2x16x2048x1, .f32⟩
  | .hbm, ⟨49, _⟩ => ⟨S2x16x2048x2048, .f32⟩
  | .hbm, ⟨50, _⟩ => ⟨S2x16x2048x2048, .f32⟩
  | .hbm, ⟨51, _⟩ => ⟨S2x16x2048x64, .f32⟩
  | .hbm, ⟨52, _⟩ => ⟨S2048x2x16x64, .f32⟩
  | .hbm, ⟨53, _⟩ => ⟨S2048x2x1024, .f32⟩
  | .hbm, ⟨54, _⟩ => ⟨S2048x2x1024, .f32⟩
  | .hbm, ⟨55, _⟩ => ⟨S1x1x1024, .f32⟩
  | .hbm, ⟨56, _⟩ => ⟨S2048x2x1024, .f32⟩
  | .hbm, ⟨57, _⟩ => ⟨S2048x2x1024, .f32⟩
  | .hbm, ⟨58, _⟩ => ⟨S_, .f32⟩
  | .hbm, ⟨59, _⟩ => ⟨S2x2048x2048, .f32⟩
  | .hbm, ⟨60, _⟩ => ⟨S_, .f32⟩
  | .hbm, ⟨61, _⟩ => ⟨S2x2048x2048, .f32⟩
  | .hbm, ⟨62, _⟩ => ⟨S2x2048x2048, .f32⟩
  | _, _ => ⟨S2048x2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_2 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_3 : Ref sig .tc := ⟨.hbm, 58, rfl⟩
abbrev main_v42 : Ref sig .tc := ⟨.hbm, 59, rfl⟩
abbrev main_cst_4 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S2048x2x1024_0_1_2 : S1x1x1024.BroadcastsInDim S2048x2x1024 (![0, 1, 2] : Fin 3 → Fin S2048x2x1024.rank)
  shapeCasts_S2048x2x1024_S2048x2x16x64 : S2048x2x1024.ShapeCasts S2048x2x16x64
  transposes_S2048x2x16x64_S2x16x2048x64_1_2_0_3 : S2048x2x16x64.Transposes [1, 2, 0, 3] S2x16x2048x64
  bcast_S_S2x16x2048x2048 : S_.BroadcastsInDim S2x16x2048x2048 (![] : Fin 0 → Fin S2x16x2048x2048.rank)
  bcast_S2x2048x2048_S2x1x2048x2048_0_2_3 : S2x2048x2048.BroadcastsInDim S2x1x2048x2048 (![0, 2, 3] : Fin 3 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2048x2x16x64_2_0_1_3 : S2x16x2048x64.Transposes [2, 0, 1, 3] S2048x2x16x64
  shapeCasts_S2048x2x16x64_S2048x2x1024 : S2048x2x16x64.ShapeCasts S2048x2x1024
  reducesTo_S2x16x2048x2048_S2x2048x2048_d1 : S2x16x2048x2048.ReducesTo [1] S2x2048x2048
  bcast_S_S2x2048x2048 : S_.BroadcastsInDim S2x2048x2048 (![] : Fin 0 → Fin S2x2048x2048.rank)
  dot_S2048x2x1024_S1024x1024_S2048x2x1024_2_1_01_0_n_n_wf : DotDims.WF S2048x2x1024 S1024x1024 S2048x2x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2048x2x1024_S1024x1024_S2048x2x1024_2_1_01_0_n_n : DotDims S2048x2x1024 S1024x1024 S2048x2x1024 where
  lhsContracting := [2]
  rhsContracting := [1]
  lhsNonContracting := [0, 1]
  rhsNonContracting := [0]
  lhsBatch := []
  rhsBatch := []
  wf := dot_S2048x2x1024_S1024x1024_S2048x2x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelRun.lean ====
/-
  The idealized kernel's run with its two results kept.

  Every weakly fair execution of the kernel's @main from a memory with zero counters terminates without a fault,
  and in the final state every buffer that outlives a region holds what the last boundary of the run gives it:
  the launch memory carried through the host operations before, between and after the five regions, each region's
  arrays replaced by what its write-backs leave. Read at the two result buffers this is the value the rest of
  the proof opens; read at the twelve arguments it is the launch memory.
-/
import proofs.«174445_j41566693491436_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with both results at the last boundary's contents and the arguments as launched. -/
theorem run_results : θ_run defs (onTc (τ := τ) (main (F := F))) ⟨m, fun _ => 0, ρ⟩ (fun r => ∀ c : Dev nD,
      r.2.mem ((c.tc : Thread nD τ).loc main_v20) = W11 m ρ c (Proc.devRef .tc main_v20)
      ∧ r.2.mem ((c.tc : Thread nD τ).loc main_v15_1) = W11 m ρ c (Proc.devRef .tc main_v15_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v20 (by decide)),
       h c _ (mem_uc main_v15_1 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c),
       (h c _ (mem_uc main_arg11 (by decide))).trans (W11_main_arg11 m ρ c)⟩)

end Cert.KernelIdeal.Run

end
-- ==== Proof.Spec.lean ====
/-
  Multi-head attention over the extended reals, as whole-array functions.

  A linear layer sends the rows of `x` to `x · wᵀ + b`: entry `(r, n)` is `∑ k, x (r, k) · w (n, k)` plus `b n`.
  For one query row `q` of a head, the key rows `K t` and the mask row `μ t`:
    score t  = (∑ d, q d · K t d) · ⅛ + μ t
    top      = the largest score, taken from −∞ upward
    weight t = exp (score t − top) / ∑ t', exp (score t' − top)
  and the layer's two results are, per batch `b`, head `h` and query row `s`,
    output (b, h, s, d) = ∑ t, weight t · V (b, h, t, d)        mean (b, s, t) = (∑ h, weight t) · 1⁄16.
  Every function is stated for any number of batches and of query rows, so that one definition reads both the
  whole arrays and one grid point's blocks; the keys always number 2048, the heads 16, a head's width 64.
  Nothing here needs an entry to be finite: the operations are the total ones of the extended reals.

  The two scales are exact binary fractions: multiplying by the pattern of 0.125 is dividing by the pattern of 8.0,
  multiplying by the pattern of 0.0625 is dividing by the pattern of 16.0; and −∞ is the least extended real.
-/
import Idealize.ShloMosaic.PureOps.Ideal
import Idealize.ShloMosaic.PureOps.Ideal.Laws
import Idealize.ShloMosaic.Lib.ValueIdx
import Mathlib.Algebra.BigOperators.Fin

noncomputable section

namespace Cert.Mha

open Idealize.ShloMosaic Idealize.ShloMosaic.ValueIdx

abbrev Arr2 (a b : Nat) := (⟨2, ![a, b]⟩ : Shape).Idx → EReal
abbrev Arr3 (a b c : Nat) := (⟨3, ![a, b, c]⟩ : Shape).Idx → EReal
abbrev Arr4 (a b c d : Nat) := (⟨4, ![a, b, c, d]⟩ : Shape).Idx → EReal

/-- One eighth, the reciprocal of the square root of a head's width, as its single-precision pattern. -/
abbrev eighth : EReal := Ideal.ofBits .f32 0x3E000000#32
/-- One sixteenth, the reciprocal of the number of heads. -/
abbrev sixteenth : EReal := Ideal.ofBits .f32 0x3D800000#32
/-- Minus infinity, where a row's maximum starts. -/
abbrev bottom : EReal := Ideal.ofBits .f32 0xFF800000#32

/-- A linear layer on rows: `x · wᵀ + b`. -/
def rowsAffine {N : Nat} (x : Arr2 N 1024) (w : Arr2 1024 1024) (b : Arr2 1 1024) : Arr2 N 1024 :=
  fun i => (∑ k : Fin 1024, x (ix2 (i 0) k) * w (ix2 (i 1) k)) + b (ix2 (0 : Fin 1) (i 1))

/-- The largest entry of a row of scores, from −∞ upward. -/
def rowTop (sc : Fin 2048 → EReal) : EReal := (Finset.univ : Finset (Fin 2048)).fold max bottom sc

/-- The softmax weight of entry `t` of a row of scores. -/
def rowWeight (sc : Fin 2048 → EReal) (t : Fin 2048) : EReal :=
  Ideal.div (Ideal.exp (sc t - rowTop sc)) (∑ t' : Fin 2048, Ideal.exp (sc t' - rowTop sc))

/-- The scores of query row `(b, h, s)`: scaled inner products with every key row of the head, plus the mask row. -/
def scoreRow {B S : Nat} (q : Arr4 B 16 S 64) (k : Arr4 B 16 2048 64) (mask : Arr3 B S 2048)
    (b : Fin B) (h : Fin 16) (s : Fin S) (t : Fin 2048) : EReal :=
  (∑ d : Fin 64, q (ix4 b h s d) * k (ix4 b h t d)) * eighth + mask (ix3 b s t)

/-- The attention weights. -/
def weights {B S : Nat} (q : Arr4 B 16 S 64) (k : Arr4 B 16 2048 64) (mask : Arr3 B S 2048) : Arr4 B 16 S 2048 :=
  fun i => rowWeight (scoreRow q k mask (i 0) (i 1) (i 2)) (i 3)

/-- The attention output: the weights against the values. -/
def attnOut {B S : Nat} (q : Arr4 B 16 S 64) (k v : Arr4 B 16 2048 64) (mask : Arr3 B S 2048) : Arr4 B 16 S 64 :=
  fun i => ∑ t : Fin 2048, weights q k mask (ix4 (i 0) (i 1) (i 2) t) * v (ix4 (i 0) (i 1) t (i 3))

/-- The weights averaged over the heads. -/
def attnMean {B S : Nat} (q : Arr4 B 16 S 64) (k : Arr4 B 16 2048 64) (mask : Arr3 B S 2048) : Arr3 B S 2048 :=
  fun i => (∑ h : Fin 16, weights q k mask (ix4 (i 0) h (i 1) (i 2))) * sixteenth

theorem ofBits_eighth : Ideal.ofBits .f32 0x3E000000#32 = ((1 / 8 : ℝ) : EReal) := by
  simp [Ideal.ofBits, Ideal.ieee, -EReal.coe_mul]; norm_num

theorem ofBits_eight : Ideal.ofBits .f32 0x41000000#32 = ((8 : ℝ) : EReal) := by
  simp [Ideal.ofBits, Ideal.ieee, -EReal.coe_mul]; norm_num

theorem ofBits_sixteenth : Ideal.ofBits .f32 0x3D800000#32 = ((1 / 16 : ℝ) : EReal) := by
  simp [Ideal.ofBits, Ideal.ieee, -EReal.coe_mul]; norm_num

theorem ofBits_sixteen : Ideal.ofBits .f32 0x41800000#32 = ((16 : ℝ) : EReal) := by
  simp [Ideal.ofBits, Ideal.ieee, -EReal.coe_mul]; norm_num

/-- Dividing by eight is multiplying by one eighth, on every extended real. -/
theorem div_eight (x : EReal) : Ideal.div x (Ideal.ofBits .f32 0x41000000#32) = x * eighth := by
  rw [ofBits_eight, Ideal.div_coe (by norm_num : (8 : ℝ) ≠ 0)]; unfold eighth; rw [ofBits_eighth]

/-- Dividing by sixteen is multiplying by one sixteenth, on every extended real. -/
theorem div_sixteen (x : EReal) : Ideal.div x (Ideal.ofBits .f32 0x41800000#32) = x * sixteenth := by
  rw [ofBits_sixteen, Ideal.div_coe (by norm_num : (16 : ℝ) ≠ 0)]; unfold sixteenth; rw [ofBits_sixteenth]

/-- The pattern of −∞ is the least extended real. -/
theorem bottom_eq : bottom = ⊥ := by
  simp [bottom, Ideal.ofBits, Ideal.ieee]

/-- Flooring a row's top at −∞ once more changes nothing. -/
theorem max_bottom (y : EReal) : max bottom y = y := by rw [bottom_eq]; exact max_bot_left y

/-! ## Locality: which entries of the operands an entry of each function reads -/

/-- An entry of a linear layer reads one row of `x`, one row of `w` and one entry of `b`. -/
theorem rowsAffine_congr {N N' : Nat} (x : Arr2 N 1024) (x' : Arr2 N' 1024) (w w' : Arr2 1024 1024) (b b' : Arr2 1 1024)
    (i : (⟨2, ![N, 1024]⟩ : Shape).Idx) (i' : (⟨2, ![N', 1024]⟩ : Shape).Idx)
    (hx : ∀ k : Fin 1024, x (ix2 (i 0) k) = x' (ix2 (i' 0) k))
    (hw : ∀ k : Fin 1024, w (ix2 (i 1) k) = w' (ix2 (i' 1) k))
    (hb : b (ix2 (0 : Fin 1) (i 1)) = b' (ix2 (0 : Fin 1) (i' 1))) :
    rowsAffine x w b i = rowsAffine x' w' b' i' := by
  unfold rowsAffine
  rw [hb]
  exact congrArg (· + _) (Finset.sum_congr rfl fun k _ => by rw [hx k, hw k])

/-- A row of scores reads one query row, the head's keys and one mask row. -/
theorem scoreRow_congr {B S B' S' : Nat} (q : Arr4 B 16 S 64) (q' : Arr4 B' 16 S' 64) (k : Arr4 B 16 2048 64) (k' : Arr4 B' 16 2048 64)
    (mask : Arr3 B S 2048) (mask' : Arr3 B' S' 2048) (b : Fin B) (b' : Fin B') (h : Fin 16) (s : Fin S) (s' : Fin S')
    (hq : ∀ d : Fin 64, q (ix4 b h s d) = q' (ix4 b' h s' d))
    (hk : ∀ (t : Fin 2048) (d : Fin 64), k (ix4 b h t d) = k' (ix4 b' h t d))
    (hm : ∀ t : Fin 2048, mask (ix3 b s t) = mask' (ix3 b' s' t)) :
    scoreRow q k mask b h s = scoreRow q' k' mask' b' h s' := by
  funext t
  unfold scoreRow
  rw [hm t]
  exact congrArg (· * eighth + _) (Finset.sum_congr rfl fun d _ => by rw [hq d, hk t d])

theorem weights_apply {B S : Nat} (q : Arr4 B 16 S 64) (k : Arr4 B 16 2048 64) (mask : Arr3 B S 2048)
    (b : Fin B) (h : Fin 16) (s : Fin S) (t : Fin 2048) :
    weights q k mask (ix4 b h s t) = rowWeight (scoreRow q k mask b h s) t := rfl

theorem attnOut_apply {B S : Nat} (q : Arr4 B 16 S 64) (k v : Arr4 B 16 2048 64) (mask : Arr3 B S 2048)
    (b : Fin B) (h : Fin 16) (s : Fin S) (d : Fin 64) :
    attnOut q k v mask (ix4 b h s d) = ∑ t : Fin 2048, rowWeight (scoreRow q k mask b h s) t * v (ix4 b h t d) := rfl

theorem attnMean_apply {B S : Nat} (q : Arr4 B 16 S 64) (k : Arr4 B 16 2048 64) (mask : Arr3 B S 2048)
    (b : Fin B) (s : Fin S) (t : Fin 2048) :
    attnMean q k mask (ix3 b s t) = (∑ h : Fin 16, rowWeight (scoreRow q k mask b h s) t) * sixteenth := rfl

/-- An entry of the attention output reads one query row, the head's keys, one mask row and one column of the head's values. -/
theorem attnOut_congr {B S B' S' : Nat} (q : Arr4 B 16 S 64) (q' : Arr4 B' 16 S' 64) (k v : Arr4 B 16 2048 64) (k' v' : Arr4 B' 16 2048 64)
    (mask : Arr3 B S 2048) (mask' : Arr3 B' S' 2048) (b : Fin B) (b' : Fin B') (h : Fin 16) (s : Fin S) (s' : Fin S') (d : Fin 64)
    (hq : ∀ d : Fin 64, q (ix4 b h s d) = q' (ix4 b' h s' d))
    (hk : ∀ (t : Fin 2048) (d : Fin 64), k (ix4 b h t d) = k' (ix4 b' h t d))
    (hm : ∀ t : Fin 2048, mask (ix3 b s t) = mask' (ix3 b' s' t))
    (hv : ∀ t : Fin 2048, v (ix4 b h t d) = v' (ix4 b' h t d)) :
    attnOut q k v mask (ix4 b h s d) = attnOut q' k' v' mask' (ix4 b' h s' d) := by
  rw [attnOut_apply, attnOut_apply, scoreRow_congr q q' k k' mask mask' b b' h s s' hq hk hm]
  exact Finset.sum_congr rfl fun t _ => by rw [hv t]

/-- An entry of the head-mean reads, in every head, one query row and the head's keys, and one mask row. -/
theorem attnMean_congr {B S B' S' : Nat} (q : Arr4 B 16 S 64) (q' : Arr4 B' 16 S' 64) (k : Arr4 B 16 2048 64) (k' : Arr4 B' 16 2048 64)
    (mask : Arr3 B S 2048) (mask' : Arr3 B' S' 2048) (b : Fin B) (b' : Fin B') (s : Fin S) (s' : Fin S') (t : Fin 2048)
    (hq : ∀ (h : Fin 16) (d : Fin 64), q (ix4 b h s d) = q' (ix4 b' h s' d))
    (hk : ∀ (h : Fin 16) (t : Fin 2048) (d : Fin 64), k (ix4 b h t d) = k' (ix4 b' h t d))
    (hm : ∀ t : Fin 2048, mask (ix3 b s t) = mask' (ix3 b' s' t)) :
    attnMean q k mask (ix3 b s t) = attnMean q' k' mask' (ix3 b' s' t) := by
  rw [attnMean_apply, attnMean_apply]
  exact congrArg (· * sixteenth) (Finset.sum_congr rfl fun h _ => by
    rw [scoreRow_congr q q' k k' mask mask' b b' h s s' (hq h) (hk h) hm])

end Cert.Mha

end
-- ==== Proof.LinPay.lean ====
/-
  The body of a linear layer at one grid point, read at an index.

  The body multiplies a block of 512 rows of `x` into `wᵀ` on the matrix unit, starting from the zero array, and adds the
  bias row to every row. On the extended reals the changes of float format are the identity and the product
  started from zero is the plain sum, so entry `(r, n)` is `∑ k, x (r, k) · w (n, k) + b n`: the block's rows of the
  whole-array layer. The four linear layers of the program share this body; the last keeps single precision where the
  first three narrow the result, which on the extended reals is no difference.
-/
import proofs.«174445_j41566693491436_1_alg».proof.Proof.Gen.KernelIdeal.Skeleton
import proofs.«174445_j41566693491436_1_alg».proof.Proof.Spec
import Idealize.ShloMosaic.Lib.Pipeline.Value
import Idealize.ShloMosaic.Lib.ValueIdx
import Idealize.ShloMosaic.PureOps.Ideal.Laws

noncomputable section

namespace Cert.KernelIdeal.LinPay

open Idealize.ShloMosaic Idealize.ShloMosaic.ValueIdx Cert.KernelIdeal Cert.Mha
open Cert.KernelIdeal.Facts₀ Cert.KernelIdeal.Facts

private abbrev D := dot_S512x1024_S1024x1024_S512x1024_1_1_0_0_n_n

theorem lhs_row (j : S512x1024.Idx) (q : D.contr.Idx) : (D.lhsIdx j q 0).val = (j 0).val := by
  unfold DotDims.lhsIdx
  rw [dif_neg (show ¬(0 : Fin S512x1024.rank) ∈ D.lhsBatch by decide), dif_pos (show (0 : Fin S512x1024.rank) ∈ D.lhsNonContracting by decide)]
  rfl

theorem rhs_row (j : S512x1024.Idx) (q : D.contr.Idx) : (D.rhsIdx j q 0).val = (j 1).val := by
  unfold DotDims.rhsIdx
  rw [dif_neg (show ¬(0 : Fin S1024x1024.rank) ∈ D.rhsBatch by decide), dif_pos (show (0 : Fin S1024x1024.rank) ∈ D.rhsNonContracting by decide)]
  rfl

/-- The product of a block of rows with `wᵀ`, from the zero array, at `(r, n)`: the inner product of row `r` of the
    block with row `n` of `w`. -/
theorem matmul_rows (x : FVec Ideal S512x1024 .bf16) (w : FVec Ideal S1024x1024 .bf16) (j : S512x1024.Idx) :
    matmul D none x w (constant S512x1024 .f32 0x00000000#32) j = ∑ k : Fin 1024, x (ix2 (j 0) k) * w (ix2 (j 1) k) := by
  simp only [matmul]
  rw [Ideal.matmul_constant_zero_apply, ← Equiv.sum_comp (contrEquiv1 D 1024 rfl rfl).symm]
  refine Finset.sum_congr rfl fun k _ => ?_
  have hk := contrEquiv1_symm_val D 1024 rfl rfl k
  have el : D.lhsIdx j ((contrEquiv1 D 1024 rfl rfl).symm k) = ix2 (j 0) k := funext fun a => Fin.ext (by
    match a with
    | ⟨0, _⟩ => exact lhs_row _ _
    | ⟨1, _⟩ => exact (D.lhsIdx_val_of_single rfl j _).trans hk)
  have er : D.rhsIdx j ((contrEquiv1 D 1024 rfl rfl).symm k) = ix2 (j 1) k := funext fun a => Fin.ext (by
    match a with
    | ⟨0, _⟩ => exact rhs_row _ _
    | ⟨1, _⟩ => exact (D.rhsIdx_val_of_single rfl j _).trans hk)
  rw [el, er]
  rfl

/-- The bias row broadcast down the block's rows, at `(r, n)`, is the bias at `n`. -/
theorem bias_rows (b : FVec Ideal S1x1024 .f32) (j : S512x1024.Idx) :
    broadcastTo S512x1024 (shapeCast S1x1024 b shapeCasts_S1x1024_S1x1024) broadcasts_S1x1024_S512x1024 j
      = b (ix2 (0 : Fin 1) (j 1)) := by
  rw [shapeCast_self]
  exact broadcastTo_apply b broadcasts_S1x1024_S512x1024 j (ix2 (0 : Fin 1) (j 1)) (fun a => by
    match a with
    | ⟨0, _⟩ => show (0 : Nat) = if (1 : Nat) = 1 then 0 else _; rw [if_pos rfl]
    | ⟨1, _⟩ => show (j 1).val = if (1024 : Nat) = 1 then 0 else (j 1).val; rw [if_neg (by decide)])

/-- The body's arithmetic at an index. -/
theorem lin_at (x : FVec Ideal S512x1024 .f32) (w : FVec Ideal S1024x1024 .f32) (b : FVec Ideal S1x1024 .f32) (j : S512x1024.Idx) :
    addf (matmul D none (truncf .bf16 (shapeCast S512x1024 x shapeCasts_S512x1024_S512x1024) bitsLt_bf16_f32)
        (truncf .bf16 w bitsLt_bf16_f32) (constant S512x1024 .f32 0x00000000#32))
      (broadcastTo S512x1024 (shapeCast S1x1024 b shapeCasts_S1x1024_S1x1024) broadcasts_S1x1024_S512x1024) j
      = rowsAffine x w b j := by
  rw [addf_apply, matmul_rows, bias_rows, shapeCast_self]
  rfl

theorem k0_pay1_eq (v0 : Vec Ideal S512x1024 .f32) (v3 : Vec Ideal S1024x1024 .f32) (v6 : Vec Ideal S1x1024 .f32) :
    Gen.k0_pay1 (F := Ideal) v0 v3 v6 = rowsAffine v0 v3 v6 := by
  funext j; unfold Gen.k0_pay1; exact lin_at v0 v3 v6 j

theorem k1_pay1_eq (v0 : Vec Ideal S512x1024 .f32) (v3 : Vec Ideal S1024x1024 .f32) (v6 : Vec Ideal S1x1024 .f32) :
    Gen.k1_pay1 (F := Ideal) v0 v3 v6 = rowsAffine v0 v3 v6 := by
  funext j; unfold Gen.k1_pay1; exact lin_at v0 v3 v6 j

theorem k2_pay1_eq (v0 : Vec Ideal S512x1024 .f32) (v3 : Vec Ideal S1024x1024 .f32) (v6 : Vec Ideal S1x1024 .f32) :
    Gen.k2_pay1 (F := Ideal) v0 v3 v6 = rowsAffine v0 v3 v6 := by
  funext j; unfold Gen.k2_pay1; exact lin_at v0 v3 v6 j

theorem k4_pay1_eq (v0 : Vec Ideal S512x1024 .f32) (v3 : Vec Ideal S1024x1024 .f32) (v6 : Vec Ideal S1x1024 .f32) :
    Gen.k4_pay1 (F := Ideal) v0 v3 v6 = rowsAffine v0 v3 v6 := by
  funext j; unfold Gen.k4_pay1; exact lin_at v0 v3 v6 j

end Cert.KernelIdeal.LinPay

end
-- ==== Proof.Lin0.lean ====
/-
  The first (query) linear layer's region: what its output array holds after the region.

  The region's grid has eight points; point `t` reads rows `512·t … 512·t + 511` of the layer's input and the whole of
  its weight matrix and bias row, and writes the same rows of the output. What a point writes back is the body's
  result on those blocks, which is that block of rows of the whole-array layer, because an entry of the layer reads
  only its own row of the input. The eight blocks of rows tile the output, so after the region the output array is
  the layer of the arrays the region found.
-/
import proofs.«174445_j41566693491436_1_alg».proof.Proof.Gen.KernelIdeal.Frame
import proofs.«174445_j41566693491436_1_alg».proof.Proof.LinPay
import Idealize.ShloMosaic.Lib.Pipeline.Value

set_option maxRecDepth 16384

noncomputable section

namespace Cert.KernelIdeal.Lin0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Mha

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input's block of rows moves with the output's, the weight matrix and the bias row
    stay, and no block has a column offset. -/
theorem idx_facts : ∀ t : Fin cfg0.N, win0_0.index t (0 : Fin 2) = win0_3.index t (0 : Fin 2)
    ∧ win0_0.index t (1 : Fin 2) = 0 ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every block of rows is some point's. -/
theorem idx_onto : ∀ q0 : Fin 8, ∃ t : Fin cfg0.N, win0_3.index t = ![q0.val, 0] :=
  (by decide +kernel : ∀ q0 : Fin 8, ∃ t : Fin grid0.N, win0_3.index t = ![q0.val, 0])

/-- What point `t` writes back is block `t` of the layer of the arrays the region found. -/
theorem flushed_eq (c : Dev nD) (t : Fin cfg0.N) :
    (dat0 V c).flushed 3 t = ((cfg0.win 3).blk t).view.read (Elt Ideal)
      (rowsAffine (N := 4096) (V c main_v0) (V c main_arg4) (V c main_v3)) := by
  show (cfg0.win 3).cut (grid0.coords t) ((dat0 V c).after 3 t) = _
  rw [after0_3]
  unfold out0_3
  rw [View.canon_unit_zero hz]
  simp only [View.ld_unit_zero (S := S512x1024) hz, View.ld_unit_zero (S := S1024x1024) hz, View.ld_unit_zero (S := S1x1024) hz]
  rw [LinPay.k0_pay1_eq]
  obtain ⟨e0, e1, e2, e3, e4, e5, e6, e7⟩ := idx_facts t
  funext j
  show rowsAffine (N := 512) (iblk0 V c 0 t) (iblk0 V c 1 t) (iblk0 V c 2 t) j
    = rowsAffine (N := 4096) (V c main_v0) (V c main_arg4) (V c main_v3) (((cfg0.win 3).blk t).view.emb j)
  refine rowsAffine_congr _ _ _ _ _ _ j _ (fun k => ?_) (fun k => ?_) ?_
  · show V c main_v0 (((cfg0.win 0).blk t).view.emb (ix2 (j 0) k)) = V c main_v0 (ix2 ((((cfg0.win 3).blk t).view.emb j) 0) k)
    refine congrArg _ (funext fun a => Fin.ext ?_)
    match a with
    | ⟨0, _⟩ => show win0_0.index t (0 : Fin 2) * 512 + 1 * (j 0).val = win0_3.index t (0 : Fin 2) * 512 + 1 * (j 0).val; omega
    | ⟨1, _⟩ => show win0_0.index t (1 : Fin 2) * 1024 + 1 * k.val = k.val; omega
  · show V c main_arg4 (((cfg0.win 1).blk t).view.emb (ix2 (j 1) k)) = V c main_arg4 (ix2 ((((cfg0.win 3).blk t).view.emb j) 1) k)
    refine congrArg _ (funext fun a => Fin.ext ?_)
    match a with
    | ⟨0, _⟩ => show win0_1.index t (0 : Fin 2) * 1024 + 1 * (j 1).val = win0_3.index t (1 : Fin 2) * 1024 + 1 * (j 1).val; omega
    | ⟨1, _⟩ => show win0_1.index t (1 : Fin 2) * 1024 + 1 * k.val = k.val; omega
  · show V c main_v3 (((cfg0.win 2).blk t).view.emb (ix2 (0 : Fin 1) (j 1))) = V c main_v3 (ix2 (0 : Fin 1) ((((cfg0.win 3).blk t).view.emb j) 1))
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * (j 1).val = win0_3.index t (1 : Fin 2) * 1024 + 1 * (j 1).val; omega

/-- An index of the output is in point `t`'s block iff each coordinate is in the block's range on its axis. -/
theorem mem_blk (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v4).slice (win0_3.rect t)).set ↔ _
  rw [View.set_slice_whole, Rect.mem_set_unit]
  exact Iff.rfl

/-- The blocks of rows tile the output: row `r` is in the block of point `r / 512`. -/
theorem cover (i : S4096x1024.Idx) : ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ := idx_onto ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- After the region the output array is the layer of the arrays the region found. -/
theorem final (c : Dev nD) :
    (dat0 V c).arrAt 3 cfg0.N = rowsAffine (N := 4096) (V c main_v0) (V c main_arg4) (V c main_v3) :=
  (dat0 V c).arrAt_eq_of_cover 3 _ (fun t _ => flushed_eq V c t) cover

end Cert.KernelIdeal.Lin0

end
-- ==== Proof.Lin1.lean ====
/-
  The second (key) linear layer's region: what its output array holds after the region.

  The region's grid has eight points; point `t` reads rows `512·t … 512·t + 511` of the layer's input and the whole of
  its weight matrix and bias row, and writes the same rows of the output. What a point writes back is the body's
  result on those blocks, which is that block of rows of the whole-array layer, because an entry of the layer reads
  only its own row of the input. The eight blocks of rows tile the output, so after the region the output array is
  the layer of the arrays the region found.
-/
import proofs.«174445_j41566693491436_1_alg».proof.Proof.Gen.KernelIdeal.Frame
import proofs.«174445_j41566693491436_1_alg».proof.Proof.LinPay
import Idealize.ShloMosaic.Lib.Pipeline.Value

set_option maxRecDepth 16384

noncomputable section

namespace Cert.KernelIdeal.Lin1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Mha

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input's block of rows moves with the output's, the weight matrix and the bias row
    stay, and no block has a column offset. -/
theorem idx_facts : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 7 :=
  (by decide +kernel : ∀ t : Fin grid1.N, _)

/-- Every block of rows is some point's. -/
theorem idx_onto : ∀ q0 : Fin 8, ∃ t : Fin cfg1.N, win1_3.index t = ![q0.val, 0] :=
  (by decide +kernel : ∀ q0 : Fin 8, ∃ t : Fin grid1.N, win1_3.index t = ![q0.val, 0])

/-- What point `t` writes back is block `t` of the layer of the arrays the region found. -/
theorem flushed_eq (c : Dev nD) (t : Fin cfg1.N) :
    (dat1 V c).flushed 3 t = ((cfg1.win 3).blk t).view.read (Elt Ideal)
      (rowsAffine (N := 4096) (V c main_v1) (V c main_arg6) (V c main_v5)) := by
  show (cfg1.win 3).cut (grid1.coords t) ((dat1 V c).after 3 t) = _
  rw [after1_3]
  unfold out1_3
  rw [View.canon_unit_zero hz]
  simp only [View.ld_unit_zero (S := S512x1024) hz, View.ld_unit_zero (S := S1024x1024) hz, View.ld_unit_zero (S := S1x1024) hz]
  rw [LinPay.k1_pay1_eq]
  obtain ⟨e0, e1, e2, e3, e4, e5, e6, e7⟩ := idx_facts t
  funext j
  show rowsAffine (N := 512) (iblk1 V c 0 t) (iblk1 V c 1 t) (iblk1 V c 2 t) j
    = rowsAffine (N := 4096) (V c main_v1) (V c main_arg6) (V c main_v5) (((cfg1.win 3).blk t).view.emb j)
  refine rowsAffine_congr _ _ _ _ _ _ j _ (fun k => ?_) (fun k => ?_) ?_
  · show V c main_v1 (((cfg1.win 0).blk t).view.emb (ix2 (j 0) k)) = V c main_v1 (ix2 ((((cfg1.win 3).blk t).view.emb j) 0) k)
    refine congrArg _ (funext fun a => Fin.ext ?_)
    match a with
    | ⟨0, _⟩ => show win1_0.index t (0 : Fin 2) * 512 + 1 * (j 0).val = win1_3.index t (0 : Fin 2) * 512 + 1 * (j 0).val; omega
    | ⟨1, _⟩ => show win1_0.index t (1 : Fin 2) * 1024 + 1 * k.val = k.val; omega
  · show V c main_arg6 (((cfg1.win 1).blk t).view.emb (ix2 (j 1) k)) = V c main_arg6 (ix2 ((((cfg1.win 3).blk t).view.emb j) 1) k)
    refine congrArg _ (funext fun a => Fin.ext ?_)
    match a with
    | ⟨0, _⟩ => show win1_1.index t (0 : Fin 2) * 1024 + 1 * (j 1).val = win1_3.index t (1 : Fin 2) * 1024 + 1 * (j 1).val; omega
    | ⟨1, _⟩ => show win1_1.index t (1 : Fin 2) * 1024 + 1 * k.val = k.val; omega
  · show V c main_v5 (((cfg1.win 2).blk t).view.emb (ix2 (0 : Fin 1) (j 1))) = V c main_v5 (ix2 (0 : Fin 1) ((((cfg1.win 3).blk t).view.emb j) 1))
    refine congrArg _ (funext fun a => Fin.ext ?_)
    match a with
    | ⟨0, _⟩ => show win1_2.index t (0 : Fin 2) * 1 + 1 * 0 = 0; omega
    | ⟨1, _⟩ => show win1_2.index t (1 : Fin 2) * 1024 + 1 * (j 1).val = win1_3.index t (1 : Fin 2) * 1024 + 1 * (j 1).val; omega

/-- An index of the output is in point `t`'s block iff each coordinate is in the block's range on its axis. -/
theorem mem_blk (t : Fin cfg1.N) (i : S4096x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v6).slice (win1_3.rect t)).set ↔ _
  rw [View.set_slice_whole, Rect.mem_set_unit]
  exact Iff.rfl

/-- The blocks of rows tile the output: row `r` is in the block of point `r / 512`. -/
theorem cover (i : S4096x1024.Idx) : ∃ t : Fin cfg1.N, (cfg1.win 3).flush t = true ∧ i ∈ ((cfg1.win 3).blk t).view.set := by
  have hi0 : (i 0).val < 4096 := (i 0).isLt
  have hi1 : (i 1).val < 1024 := (i 1).isLt
  obtain ⟨t, ht⟩ := idx_onto ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- After the region the output array is the layer of the arrays the region found. -/
theorem final (c : Dev nD) :
    (dat1 V c).arrAt 3 cfg1.N = rowsAffine (N := 4096) (V c main_v1) (V c main_arg6) (V c main_v5) :=
  (dat1 V c).arrAt_eq_of_cover 3 _ (fun t _ => flushed_eq V c t) cover

end Cert.KernelIdeal.Lin1

end
-- ==== Proof.Lin2.lean ====
/-
  The third (value) linear layer's region: what its output array holds after the region.

  The region's grid has eight points; point `t` reads rows `512·t … 512·t + 511` of the layer's input and the whole of
  its weight matrix and bias row, and writes the same rows of the output. What a point writes back is the body's
  result on those blocks, which is that block of rows of the whole-array layer, because an entry of the layer reads
  only its own row of the input. The eight blocks of rows tile the output, so after the region the output array is
  the layer of the arrays the region found.
-/
import proofs.«174445_j41566693491436_1_alg».proof.Proof.Gen.KernelIdeal.Frame
import proofs.«174445_j41566693491436_1_alg».proof.Proof.LinPay
import Idealize.ShloMosaic.Lib.Pipeline.Value

set_option maxRecDepth 16384

noncomputable section

namespace Cert.KernelIdeal.Lin2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Mha

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input's block of rows moves with the output's, the weight matrix and the bias row
    stay, and no block has a column offset. -/
theorem idx_facts : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) ≤ 7 :=
  (by decide +kernel : ∀ t : Fin grid2.N, _)

/-- Every block of rows is some point's. -/
theorem idx_onto : ∀ q0 : Fin 8, ∃ t : Fin cfg2.N, win2_3.index t = ![q0.val, 0] :=
  (by decide +kernel : ∀ q0 : Fin 8, ∃ t : Fin grid2.N, win2_3.index t = ![q0.val, 0])

/-- What point `t` writes back is block `t` of the layer of the arrays the region found. -/
theorem flushed_eq (c : Dev nD) (t : Fin cfg2.N) :
    (dat2 V c).flushed 3 t = ((cfg2.win 3).blk t).view.read (Elt Ideal)
      (rowsAffine (N := 4096) (V c main_v2) (V c main_arg8) (V c main_v7)) := by
  show (cfg2.win 3).cut (grid2.coords t) ((dat2 V c).after 3 t) = _
  rw [after2_3]
  unfold out2_3
  rw [View.canon_unit_zero hz]
  simp only [View.ld_unit_zero (S := S512x1024) hz, View.ld_unit_zero (S := S1024x1024) hz, View.ld_unit_zero (S := S1x1024) hz]
  rw [LinPay.k2_pay1_eq]
  obtain ⟨e0, e1, e2, e3, e4, e5, e6, e7⟩ := idx_facts t
  funext j
  show rowsAffine (N := 512) (iblk2 V c 0 t) (iblk2 V c 1 t) (iblk2 V c 2 t) j
    = rowsAffine (N := 4096) (V c main_v2) (V c main_arg8) (V c main_v7) (((cfg2.win 3).blk t).view.emb j)
  refine rowsAffine_congr _ _ _ _ _ _ j _ (fun k => ?_) (fun k => ?_) ?_
  · show V c main_v2 (((cfg2.win 0).blk t).view.emb (ix2 (j 0) k)) = V c main_v2 (ix2 ((((cfg2.win 3).blk t).view.emb j) 0) k)
    refine congrArg _ (funext fun a => Fin.ext ?_)
    match a with
    | ⟨0, _⟩ => show win2_0.index t (0 : Fin 2) * 512 + 1 * (j 0).val = win2_3.index t (0 : Fin 2) * 512 + 1 * (j 0).val; omega
    | ⟨1, _⟩ => show win2_0.index t (1 : Fin 2) * 1024 + 1 * k.val = k.val; omega
  · show V c main_arg8 (((cfg2.win 1).blk t).view.emb (ix2 (j 1) k)) = V c main_arg8 (ix2 ((((cfg2.win 3).blk t).view.emb j) 1) k)
    refine congrArg _ (funext fun a => Fin.ext ?_)
    match a with
    | ⟨0, _⟩ => show win2_1.index t (0 : Fin 2) * 1024 + 1 * (j 1).val = win2_3.index t (1 : Fin 2) * 1024 + 1 * (j 1).val; omega
    | ⟨1, _⟩ => show win2_1.index t (1 : Fin 2) * 1024 + 1 * k.val = k.val; omega
  · show V c main_v7 (((cfg2.win 2).blk t).view.emb (ix2 (0 : Fin 1) (j 1))) = V c main_v7 (ix2 (0 : Fin 1) ((((cfg2.win 3).blk t).view.emb j) 1))
    refine congrArg _ (funext fun a => Fin.ext ?_)
    match a with
    | ⟨0, _⟩ => show win2_2.index t (0 : Fin 2) * 1 + 1 * 0 = 0; omega
    | ⟨1, _⟩ => show win2_2.index t (1 : Fin 2) * 1024 + 1 * (j 1).val = win2_3.index t (1 : Fin 2) * 1024 + 1 * (j 1).val; omega

/-- An index of the output is in point `t`'s block iff each coordinate is in the block's range on its axis. -/
theorem mem_blk (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v8).slice (win2_3.rect t)).set ↔ _
  rw [View.set_slice_whole, Rect.mem_set_unit]
  exact Iff.rfl

/-- The blocks of rows tile the output: row `r` is in the block of point `r / 512`. -/
theorem cover (i : S4096x1024.Idx) : ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- After the region the output array is the layer of the arrays the region found. -/
theorem final (c : Dev nD) :
    (dat2 V c).arrAt 3 cfg2.N = rowsAffine (N := 4096) (V c main_v2) (V c main_arg8) (V c main_v7) :=
  (dat2 V c).arrAt_eq_of_cover 3 _ (fun t _ => flushed_eq V c t) cover

end Cert.KernelIdeal.Lin2

end
-- ==== Proof.Lin4.lean ====
/-
  The last (output) linear layer's region: what its output array holds after the region.

  The region's grid has eight points; point `t` reads rows `512·t … 512·t + 511` of the layer's input and the whole of
  its weight matrix and bias row, and writes the same rows of the output. What a point writes back is the body's
  result on those blocks, which is that block of rows of the whole-array layer, because an entry of the layer reads
  only its own row of the input. The eight blocks of rows tile the output, so after the region the output array is
  the layer of the arrays the region found.
-/
import proofs.«174445_j41566693491436_1_alg».proof.Proof.Gen.KernelIdeal.Frame
import proofs.«174445_j41566693491436_1_alg».proof.Proof.LinPay
import Idealize.ShloMosaic.Lib.Pipeline.Value

set_option maxRecDepth 16384

noncomputable section

namespace Cert.KernelIdeal.Lin4

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Mha

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the input's block of rows moves with the output's, the weight matrix and the bias row
    stay, and no block has a column offset. -/
theorem idx_facts : ∀ t : Fin cfg4.N, win4_0.index t (0 : Fin 2) = win4_3.index t (0 : Fin 2)
    ∧ win4_0.index t (1 : Fin 2) = 0 ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 7 :=
  (by decide +kernel : ∀ t : Fin grid4.N, _)

/-- Every block of rows is some point's. -/
theorem idx_onto : ∀ q0 : Fin 8, ∃ t : Fin cfg4.N, win4_3.index t = ![q0.val, 0] :=
  (by decide +kernel : ∀ q0 : Fin 8, ∃ t : Fin grid4.N, win4_3.index t = ![q0.val, 0])

/-- What point `t` writes back is block `t` of the layer of the arrays the region found. -/
theorem flushed_eq (c : Dev nD) (t : Fin cfg4.N) :
    (dat4 V c).flushed 3 t = ((cfg4.win 3).blk t).view.read (Elt Ideal)
      (rowsAffine (N := 4096) (V c main_v17) (V c main_arg10) (V c main_v18)) := by
  show (cfg4.win 3).cut (grid4.coords t) ((dat4 V c).after 3 t) = _
  rw [after4_3]
  unfold out4_3
  rw [View.canon_unit_zero hz]
  simp only [View.ld_unit_zero (S := S512x1024) hz, View.ld_unit_zero (S := S1024x1024) hz, View.ld_unit_zero (S := S1x1024) hz]
  rw [LinPay.k4_pay1_eq]
  obtain ⟨e0, e1, e2, e3, e4, e5, e6, e7⟩ := idx_facts t
  funext j
  show rowsAffine (N := 512) (iblk4 V c 0 t) (iblk4 V c 1 t) (iblk4 V c 2 t) j
    = rowsAffine (N := 4096) (V c main_v17) (V c main_arg10) (V c main_v18) (((cfg4.win 3).blk t).view.emb j)
  refine rowsAffine_congr _ _ _ _ _ _ j _ (fun k => ?_) (fun k => ?_) ?_
  · show V c main_v17 (((cfg4.win 0).blk t).view.emb (ix2 (j 0) k)) = V c main_v17 (ix2 ((((cfg4.win 3).blk t).view.emb j) 0) k)
    refine congrArg _ (funext fun a => Fin.ext ?_)
    match a with
    | ⟨0, _⟩ => show win4_0.index t (0 : Fin 2) * 512 + 1 * (j 0).val = win4_3.index t (0 : Fin 2) * 512 + 1 * (j 0).val; omega
    | ⟨1, _⟩ => show win4_0.index t (1 : Fin 2) * 1024 + 1 * k.val = k.val; omega
  · show V c main_arg10 (((cfg4.win 1).blk t).view.emb (ix2 (j 1) k)) = V c main_arg10 (ix2 ((((cfg4.win 3).blk t).view.emb j) 1) k)
    refine congrArg _ (funext fun a => Fin.ext ?_)
    match a with
    | ⟨0, _⟩ => show win4_1.index t (0 : Fin 2) * 1024 + 1 * (j 1).val = win4_3.index t (1 : Fin 2) * 1024 + 1 * (j 1).val; omega
    | ⟨1, _⟩ => show win4_1.index t (1 : Fin 2) * 1024 + 1 * k.val = k.val; omega
  · show V c main_v18 (((cfg4.win 2).blk t).view.emb (ix2 (0 : Fin 1) (j 1))) = V c main_v18 (ix2 (0 : Fin 1) ((((cfg4.win 3).blk t).view.emb j) 1))
    refine congrArg _ (funext fun a => Fin.ext ?_)
    match a with
    | ⟨0, _⟩ => show win4_2.index t (0 : Fin 2) * 1 + 1 * 0 = 0; omega
    | ⟨1, _⟩ => show win4_2.index t (1 : Fin 2) * 1024 + 1 * (j 1).val = win4_3.index t (1 : Fin 2) * 1024 + 1 * (j 1).val; omega

/-- An index of the output is in point `t`'s block iff each coordinate is in the block's range on its axis. -/
theorem mem_blk (t : Fin cfg4.N) (i : S4096x1024.Idx) :
    i ∈ ((cfg4.win 3).blk t).view.set ↔ ∀ a : Fin 2, win4_3.index t a * S512x1024.size a ≤ (i a).val ∧ (i a).val < win4_3.index t a * S512x1024.size a + S512x1024.size a := by
  show i ∈ ((View.whole main_v19).slice (win4_3.rect t)).set ↔ _
  rw [View.set_slice_whole, Rect.mem_set_unit]
  exact Iff.rfl

/-- The blocks of rows tile the output: row `r` is in the block of point `r / 512`. -/
theorem cover (i : S4096x1024.Idx) : ∃ t : Fin cfg4.N, (cfg4.win 3).flush t = true ∧ i ∈ ((cfg4.win 3).blk t).view.set := by
  have hi0 : (i 0).val < 4096 := (i 0).isLt
  have hi1 : (i 1).val < 1024 := (i 1).isLt
  obtain ⟨t, ht⟩ := idx_onto ⟨(i 0).val / 512, by omega⟩
  have q0 : win4_3.index t (0 : Fin 2) = (i 0).val / 512 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 512 ≤ (i 0).val ∧ (i 0).val < win4_3.index t (0 : Fin 2) * 512 + 512; omega
  | ⟨1, _⟩ => show win4_3.index t (1 : Fin 2) * 1024 ≤ (i 1).val ∧ (i 1).val < win4_3.index t (1 : Fin 2) * 1024 + 1024; omega

/-- After the region the output array is the layer of the arrays the region found. -/
theorem final (c : Dev nD) :
    (dat4 V c).arrAt 3 cfg4.N = rowsAffine (N := 4096) (V c main_v17) (V c main_arg10) (V c main_v18) :=
  (dat4 V c).arrAt_eq_of_cover 3 _ (fun t _ => flushed_eq V c t) cover

end Cert.KernelIdeal.Lin4

end
-- ==== Proof.AttnPay.lean ====
/-
  The attention body at one grid point, read at an index.

  At a point the body holds 64 query rows of every head, all 2048 key and value rows of every head, and 64 rows of the
  mask. It forms the scores on the matrix unit from the zero array, scales them by one eighth, adds the mask rows
  (the same for every head), takes each row's maximum from −∞, exponentiates the shifted scores, divides by the row's
  sum, multiplies the weights into the values, and averages the weights over the sixteen heads. On the extended reals
  the changes of float format are the identity, a product started from zero is the plain sum, a lane maximum is the
  fold of `max` and a lane sum is the sum: entry by entry the two stored blocks are the attention output and the
  head-mean of the blocks, as whole-array functions of one batch and sixty-four query rows.
-/
import proofs.«174445_j41566693491436_1_alg».proof.Proof.Gen.KernelIdeal.Skeleton
import proofs.«174445_j41566693491436_1_alg».proof.Proof.Spec
import Idealize.ShloMosaic.Lib.Pipeline.Value
import Idealize.ShloMosaic.Lib.ValueIdx
import Idealize.ShloMosaic.PureOps.Ideal.Laws

noncomputable section

namespace Cert.KernelIdeal.AttnPay

open Idealize.ShloMosaic Idealize.ShloMosaic.ValueIdx Cert.KernelIdeal Cert.Mha
open Cert.KernelIdeal.Facts₀ Cert.KernelIdeal.Facts

private abbrev DQK := dot_S16x64x64_S16x2048x64_S16x64x2048_2_2_1_1_0_0
private abbrev DPV := dot_S16x64x2048_S16x2048x64_S16x64x64_2_1_1_2_0_0

/-! ## The two products at an index -/

theorem qk_l0 (j : S16x64x2048.Idx) (q : DQK.contr.Idx) : (DQK.lhsIdx j q 0).val = (j 0).val := by
  unfold DotDims.lhsIdx
  rw [dif_pos (show (0 : Fin S16x64x64.rank) ∈ DQK.lhsBatch by decide)]
  rfl
theorem qk_l1 (j : S16x64x2048.Idx) (q : DQK.contr.Idx) : (DQK.lhsIdx j q 1).val = (j 1).val := by
  unfold DotDims.lhsIdx
  rw [dif_neg (show ¬(1 : Fin S16x64x64.rank) ∈ DQK.lhsBatch by decide), dif_pos (show (1 : Fin S16x64x64.rank) ∈ DQK.lhsNonContracting by decide)]
  rfl
theorem qk_r0 (j : S16x64x2048.Idx) (q : DQK.contr.Idx) : (DQK.rhsIdx j q 0).val = (j 0).val := by
  unfold DotDims.rhsIdx
  rw [dif_pos (show (0 : Fin S16x2048x64.rank) ∈ DQK.rhsBatch by decide)]
  rfl
theorem qk_r1 (j : S16x64x2048.Idx) (q : DQK.contr.Idx) : (DQK.rhsIdx j q 1).val = (j 2).val := by
  unfold DotDims.rhsIdx
  rw [dif_neg (show ¬(1 : Fin S16x2048x64.rank) ∈ DQK.rhsBatch by decide), dif_pos (show (1 : Fin S16x2048x64.rank) ∈ DQK.rhsNonContracting by decide)]
  rfl

/-- Scores before scaling: per head, the inner product of a query row with a key row. -/
theorem qk_at (a : FVec Ideal S16x64x64 .bf16) (b : FVec Ideal S16x2048x64 .bf16) (j : S16x64x2048.Idx) :
    matmul DQK none a b (constant S16x64x2048 .f32 0x00000000#32) j
      = ∑ d : Fin 64, a (ix3 (j 0) (j 1) d) * b (ix3 (j 0) (j 2) d) := by
  simp only [matmul]
  rw [Ideal.matmul_constant_zero_apply, ← Equiv.sum_comp (contrEquiv1 DQK 64 rfl rfl).symm]
  refine Finset.sum_congr rfl fun k _ => ?_
  have hk := contrEquiv1_symm_val DQK 64 rfl rfl k
  have el : DQK.lhsIdx j ((contrEquiv1 DQK 64 rfl rfl).symm k) = ix3 (j 0) (j 1) k := funext fun a => Fin.ext (by
    match a with
    | ⟨0, _⟩ => exact qk_l0 _ _
    | ⟨1, _⟩ => exact qk_l1 _ _
    | ⟨2, _⟩ => exact (DQK.lhsIdx_val_of_single rfl j _).trans hk)
  have er : DQK.rhsIdx j ((contrEquiv1 DQK 64 rfl rfl).symm k) = ix3 (j 0) (j 2) k := funext fun a => Fin.ext (by
    match a with
    | ⟨0, _⟩ => exact qk_r0 _ _
    | ⟨1, _⟩ => exact qk_r1 _ _
    | ⟨2, _⟩ => exact (DQK.rhsIdx_val_of_single rfl j _).trans hk)
  rw [el, er]
  rfl

theorem pv_l0 (j : S16x64x64.Idx) (q : DPV.contr.Idx) : (DPV.lhsIdx j q 0).val = (j 0).val := by
  unfold DotDims.lhsIdx
  rw [dif_pos (show (0 : Fin S16x64x2048.rank) ∈ DPV.lhsBatch by decide)]
  rfl
theorem pv_l1 (j : S16x64x64.Idx) (q : DPV.contr.Idx) : (DPV.lhsIdx j q 1).val = (j 1).val := by
  unfold DotDims.lhsIdx
  rw [dif_neg (show ¬(1 : Fin S16x64x2048.rank) ∈ DPV.lhsBatch by decide), dif_pos (show (1 : Fin S16x64x2048.rank) ∈ DPV.lhsNonContracting by decide)]
  rfl
theorem pv_r0 (j : S16x64x64.Idx) (q : DPV.contr.Idx) : (DPV.rhsIdx j q 0).val = (j 0).val := by
  unfold DotDims.rhsIdx
  rw [dif_pos (show (0 : Fin S16x2048x64.rank) ∈ DPV.rhsBatch by decide)]
  rfl
theorem pv_r2 (j : S16x64x64.Idx) (q : DPV.contr.Idx) : (DPV.rhsIdx j q 2).val = (j 2).val := by
  unfold DotDims.rhsIdx
  rw [dif_neg (show ¬(2 : Fin S16x2048x64.rank) ∈ DPV.rhsBatch by decide), dif_pos (show (2 : Fin S16x2048x64.rank) ∈ DPV.rhsNonContracting by decide)]
  rfl

/-- Weights against values: per head, a row of weights against a column of the values. -/
theorem pv_at (a : FVec Ideal S16x64x2048 .bf16) (b : FVec Ideal S16x2048x64 .bf16) (j : S16x64x64.Idx) :
    matmul DPV none a b (constant S16x64x64 .f32 0x00000000#32) j
      = ∑ t : Fin 2048, a (ix3 (j 0) (j 1) t) * b (ix3 (j 0) t (j 2)) := by
  simp only [matmul]
  rw [Ideal.matmul_constant_zero_apply, ← Equiv.sum_comp (contrEquiv1 DPV 2048 rfl rfl).symm]
  refine Finset.sum_congr rfl fun k _ => ?_
  have hk := contrEquiv1_symm_val DPV 2048 rfl rfl k
  have el : DPV.lhsIdx j ((contrEquiv1 DPV 2048 rfl rfl).symm k) = ix3 (j 0) (j 1) k := funext fun a => Fin.ext (by
    match a with
    | ⟨0, _⟩ => exact pv_l0 _ _
    | ⟨1, _⟩ => exact pv_l1 _ _
    | ⟨2, _⟩ => exact (DPV.lhsIdx_val_of_single rfl j _).trans hk)
  have er : DPV.rhsIdx j ((contrEquiv1 DPV 2048 rfl rfl).symm k) = ix3 (j 0) k (j 2) := funext fun a => Fin.ext (by
    match a with
    | ⟨0, _⟩ => exact pv_r0 _ _
    | ⟨1, _⟩ => exact (DPV.rhsIdx_val_of_single rfl j _).trans hk
    | ⟨2, _⟩ => exact pv_r2 _ _)
  rw [el, er]
  rfl

/-! ## Dropping and adding the block's unit batch axis -/

theorem squeeze_q {α : Type} (v : S1x16x64x64.Idx → α) (j : S16x64x64.Idx) :
    shapeCast S16x64x64 v shapeCasts_S1x16x64x64_S16x64x64 j = v (ix4 (0 : Fin 1) (j 0) (j 1) (j 2)) :=
  shapeCast_apply v _ j _ (by
    rw [Shape.rowMajor_val_four, Shape.rowMajor_val_three]
    show ((0 * 16 + (j 0).val) * 64 + (j 1).val) * 64 + (j 2).val = ((j 0).val * 64 + (j 1).val) * 64 + (j 2).val
    omega)

theorem squeeze_kv {α : Type} (v : S1x16x2048x64.Idx → α) (j : S16x2048x64.Idx) :
    shapeCast S16x2048x64 v shapeCasts_S1x16x2048x64_S16x2048x64 j = v (ix4 (0 : Fin 1) (j 0) (j 1) (j 2)) :=
  shapeCast_apply v _ j _ (by
    rw [Shape.rowMajor_val_four, Shape.rowMajor_val_three]
    show ((0 * 16 + (j 0).val) * 2048 + (j 1).val) * 64 + (j 2).val = ((j 0).val * 2048 + (j 1).val) * 64 + (j 2).val
    omega)

theorem unsqueeze_o {α : Type} (v : S16x64x64.Idx → α) (j : S1x16x64x64.Idx) :
    shapeCast S1x16x64x64 v shapeCasts_S16x64x64_S1x16x64x64 j = v (ix3 (j 1) (j 2) (j 3)) :=
  shapeCast_apply v _ j _ (by
    rw [Shape.rowMajor_val_four, Shape.rowMajor_val_three]
    have h0 : (j 0).val < 1 := (j 0).isLt
    show ((j 1).val * 64 + (j 2).val) * 64 + (j 3).val = (((j 0).val * 16 + (j 1).val) * 64 + (j 2).val) * 64 + (j 3).val
    omega)

theorem unsqueeze_a {α : Type} (v : S64x2048.Idx → α) (j : S1x64x2048.Idx) :
    shapeCast S1x64x2048 v shapeCasts_S64x2048_S1x64x2048 j = v (ix2 (j 1) (j 2)) :=
  shapeCast_apply v _ j _ (by
    rw [Shape.rowMajor_val_three, Shape.rowMajor_val_two]
    have h0 : (j 0).val < 1 := (j 0).isLt
    show (j 1).val * 2048 + (j 2).val = ((j 0).val * 64 + (j 1).val) * 2048 + (j 2).val
    omega)

/-! ## Broadcasts -/

/-- A per-row quantity kept as a column and broadcast along the keys. -/
def bcol (y : FVec Ideal S16x64 .f32) : FVec Ideal S16x64x2048 .f32 :=
  broadcastTo S16x64x2048 (shapeCast S16x64x1 y shapeCasts_S16x64_S16x64x1) broadcasts_S16x64x1_S16x64x2048

theorem bcol_at (y : FVec Ideal S16x64 .f32) (h : Fin 16) (r : Fin 64) (t : Fin 2048) : bcol y (ix3 h r t) = y (ix2 h r) := by
  unfold bcol
  have e1 := broadcastTo_apply (shapeCast S16x64x1 y shapeCasts_S16x64_S16x64x1) broadcasts_S16x64x1_S16x64x2048 (ix3 h r t)
    (ix3 h r (0 : Fin 1)) (fun a => by
      match a with
      | ⟨0, _⟩ => show h.val = if (16 : Nat) = 1 then 0 else h.val; rw [if_neg (by decide)]
      | ⟨1, _⟩ => show r.val = if (64 : Nat) = 1 then 0 else r.val; rw [if_neg (by decide)]
      | ⟨2, _⟩ => show (0 : Nat) = if (1 : Nat) = 1 then 0 else t.val; rw [if_pos rfl])
  have e2 := shapeCast_apply y shapeCasts_S16x64_S16x64x1 (ix3 h r (0 : Fin 1)) (ix2 h r) (by
    rw [Shape.rowMajor_val_two, Shape.rowMajor_val_three]
    show h.val * 64 + r.val = (h.val * 64 + r.val) * 1 + 0
    omega)
  exact e1.trans e2

/-- The mask rows, the same for every head. -/
theorem mask_at (v9 : FVec Ideal S1x64x2048 .f32) (h : Fin 16) (r : Fin 64) (t : Fin 2048) :
    broadcastTo S16x64x2048 (shapeCast S1x64x2048 (shapeCast S64x2048 v9 shapeCasts_S1x64x2048_S64x2048) shapeCasts_S64x2048_S1x64x2048)
        broadcasts_S1x64x2048_S16x64x2048 (ix3 h r t) = v9 (ix3 (0 : Fin 1) r t) := by
  rw [shapeCast_shapeCast]
  exact broadcastTo_apply v9 broadcasts_S1x64x2048_S16x64x2048 (ix3 h r t) (ix3 (0 : Fin 1) r t) (fun a => by
    match a with
    | ⟨0, _⟩ => show (0 : Nat) = if (1 : Nat) = 1 then 0 else h.val; rw [if_pos rfl]
    | ⟨1, _⟩ => show r.val = if (64 : Nat) = 1 then 0 else r.val; rw [if_neg (by decide)]
    | ⟨2, _⟩ => show t.val = if (2048 : Nat) = 1 then 0 else t.val; rw [if_neg (by decide)])

/-! ## The scores -/

/-- The scores of the block: scaled products plus the mask rows. -/
def scoreVec (v0 : FVec Ideal S1x16x64x64 .bf16) (v2 : FVec Ideal S1x16x2048x64 .bf16) (v9 : FVec Ideal S1x64x2048 .f32) :
    FVec Ideal S16x64x2048 .f32 :=
  addf (mulf (matmul DQK none (shapeCast S16x64x64 v0 shapeCasts_S1x16x64x64_S16x64x64)
        (shapeCast S16x2048x64 v2 shapeCasts_S1x16x2048x64_S16x2048x64) (constant S16x64x2048 .f32 0x00000000#32))
      (broadcast S16x64x2048 (Scalar.ofBits (F := Ideal) .f32 0x3E000000#32)))
    (broadcastTo S16x64x2048 (shapeCast S1x64x2048 (shapeCast S64x2048 v9 shapeCasts_S1x64x2048_S64x2048) shapeCasts_S64x2048_S1x64x2048)
      broadcasts_S1x64x2048_S16x64x2048)

theorem scoreVec_at (v0 : FVec Ideal S1x16x64x64 .bf16) (v2 : FVec Ideal S1x16x2048x64 .bf16) (v9 : FVec Ideal S1x64x2048 .f32)
    (h : Fin 16) (r : Fin 64) (t : Fin 2048) :
    scoreVec v0 v2 v9 (ix3 h r t) = scoreRow (B := 1) (S := 64) v0 v2 v9 0 h r t := by
  unfold scoreVec scoreRow
  rw [addf_apply, mulf_apply, qk_at, mask_at]
  simp only [squeeze_q, squeeze_kv]
  rfl

/-! ## The softmax of a block of scores -/

theorem lift_key (hr : S16x64x2048.Reduces [2] S16x64) (j : S16x64.Idx) (t : Fin 2048) : hr.lift j t = ix3 (j 0) (j 1) t :=
  funext fun a => Fin.ext (by
    match a with
    | ⟨0, _⟩ => rfl
    | ⟨1, _⟩ => rfl
    | ⟨2, _⟩ => rfl)

theorem lift_head (hr : S16x64x2048.Reduces [0] S64x2048) (j : S64x2048.Idx) (h : Fin 16) : hr.lift j h = ix3 h (j 0) (j 1) :=
  funext fun a => Fin.ext (by
    match a with
    | ⟨0, _⟩ => rfl
    | ⟨1, _⟩ => rfl
    | ⟨2, _⟩ => rfl)

/-- Each row's largest score. -/
def topVec (s : FVec Ideal S16x64x2048 .f32) : FVec Ideal S16x64 .f32 :=
  multiReduction .maximumf [2] S16x64 s 0xFF800000#32 reduces_S16x64x2048_S16x64 (.inl rfl) rfl

theorem topVec_at (s : FVec Ideal S16x64x2048 .f32) (h : Fin 16) (r : Fin 64) :
    topVec s (ix2 h r) = rowTop (fun t => s (ix3 h r t)) := by
  unfold topVec
  refine (Ideal.multiReduction_maximumf_single s 0xFF800000#32 reduces_S16x64x2048_S16x64 (.inl rfl) rfl (ix2 h r)).trans ?_
  have e : (s ∘ reduces_S16x64x2048_S16x64.lift (ix2 h r)) = fun t : Fin 2048 => s (ix3 h r t) :=
    funext fun t => congrArg s (lift_key _ (ix2 h r) t)
  rw [e]
  rfl

/-- The shifted scores, exponentiated. -/
def expVec (s : FVec Ideal S16x64x2048 .f32) : FVec Ideal S16x64x2048 .f32 := exp (subf s (bcol (topVec s)))

theorem expVec_at (s : FVec Ideal S16x64x2048 .f32) (h : Fin 16) (r : Fin 64) (t : Fin 2048) :
    expVec s (ix3 h r t) = Ideal.exp (s (ix3 h r t) - rowTop (fun t' => s (ix3 h r t'))) := by
  show Ideal.exp (s (ix3 h r t) - bcol (topVec s) (ix3 h r t)) = _
  rw [bcol_at, topVec_at]

/-- The weights of the block. -/
def weightVec (s : FVec Ideal S16x64x2048 .f32) : FVec Ideal S16x64x2048 .f32 :=
  divf (expVec s) (bcol (multiReduction .add [2] S16x64 (expVec s) 0x00000000#32 reduces_S16x64x2048_S16x64 (.inl rfl) rfl))

theorem weightVec_at (s : FVec Ideal S16x64x2048 .f32) (h : Fin 16) (r : Fin 64) (t : Fin 2048) :
    weightVec s (ix3 h r t) = rowWeight (fun t' => s (ix3 h r t')) t := by
  unfold weightVec rowWeight
  rw [divf_apply, bcol_at, expVec_at]
  refine congrArg (Ideal.div _) ?_
  refine (Ideal.multiReduction_add_single (expVec s) 0x00000000#32 reduces_S16x64x2048_S16x64 (.inl rfl) rfl (ix2 h r)).trans ?_
  refine Finset.sum_congr rfl fun (t' : Fin 2048) _ => ?_
  exact (congrArg (expVec s) (lift_key _ (ix2 h r) t')).trans (expVec_at s h r t')

set_option maxRecDepth 16384 in
theorem pay2_eq (v0 : FVec Ideal S1x16x64x64 .bf16) (v2 : FVec Ideal S1x16x2048x64 .bf16) (v9 : FVec Ideal S1x64x2048 .f32) :
    Gen.k3_pay2 (F := Ideal) v0 v2 v9 = weightVec (scoreVec v0 v2 v9) := rfl

theorem pay2_at (v0 : FVec Ideal S1x16x64x64 .bf16) (v2 : FVec Ideal S1x16x2048x64 .bf16) (v9 : FVec Ideal S1x64x2048 .f32)
    (h : Fin 16) (r : Fin 64) (t : Fin 2048) :
    Gen.k3_pay2 (F := Ideal) v0 v2 v9 (ix3 h r t) = rowWeight (scoreRow (B := 1) (S := 64) v0 v2 v9 0 h r) t := by
  rw [pay2_eq, weightVec_at]
  exact congrArg (rowWeight · t) (funext fun t' => scoreVec_at v0 v2 v9 h r t')

/-! ## The two stored blocks -/

/-- The block stored to the attention output is the attention output of the blocks. -/
theorem pay3_eq (v0 : FVec Ideal S1x16x64x64 .bf16) (v2 v4 : FVec Ideal S1x16x2048x64 .bf16) (v9 : FVec Ideal S1x64x2048 .f32) :
    Gen.k3_pay3 (F := Ideal) v0 v2 v4 v9 = attnOut (B := 1) (S := 64) v0 v2 v4 v9 := by
  funext j
  obtain ⟨b0, h, r, d, rfl⟩ : ∃ (b0 : Fin 1) (h : Fin 16) (r : Fin 64) (d : Fin 64), j = ix4 b0 h r d := ⟨j 0, j 1, j 2, j 3, eq_ix4 j⟩
  obtain rfl : b0 = 0 := Subsingleton.elim _ _
  unfold Gen.k3_pay3
  rw [attnOut_apply]
  refine (unsqueeze_o _ _).trans ?_
  refine (pv_at _ _ _).trans ?_
  refine Finset.sum_congr rfl fun t _ => ?_
  rw [squeeze_kv]
  exact congrArg (· * _) (pay2_at v0 v2 v9 h r t)

/-- The block stored to the head-mean is the head-mean of the blocks. -/
theorem pay5_eq (v0 : FVec Ideal S1x16x64x64 .bf16) (v2 : FVec Ideal S1x16x2048x64 .bf16) (v9 : FVec Ideal S1x64x2048 .f32) :
    Gen.k3_pay1 (F := Ideal) (Gen.k3_pay4 (F := Ideal) v0 v2 v9) = attnMean (B := 1) (S := 64) v0 v2 v9 := by
  funext j
  obtain ⟨b0, r, t, rfl⟩ : ∃ (b0 : Fin 1) (r : Fin 64) (t : Fin 2048), j = ix3 b0 r t := ⟨j 0, j 1, j 2, eq_ix3 j⟩
  obtain rfl : b0 = 0 := Subsingleton.elim _ _
  unfold Gen.k3_pay1 Gen.k3_pay4
  rw [attnMean_apply]
  refine (unsqueeze_a _ _).trans ?_
  rw [mulf_apply]
  refine congrArg (· * sixteenth) ?_
  refine (Ideal.multiReduction_add_single (Gen.k3_pay2 (F := Ideal) v0 v2 v9) 0x00000000#32 _ (.inl rfl) rfl _).trans ?_
  refine Finset.sum_congr rfl fun (h : Fin 16) _ => ?_
  exact (congrArg (Gen.k3_pay2 (F := Ideal) v0 v2 v9) (lift_head _ _ h)).trans (pay2_at v0 v2 v9 h r t)

end Cert.KernelIdeal.AttnPay

end
-- ==== Proof.Attn3.lean ====
/-
  The attention region: what its two output arrays hold after the region.

  The grid is 2 × 32: point `(b, i)` reads query rows `64·i … 64·i + 63` of every head of batch `b`, all key and value
  rows of the batch, and the same 64 rows of the batch's mask, and writes those rows of the attention output and of the
  head-mean. What a point writes back is the body's result on its blocks, which is that block of the whole-array
  functions, because an entry of either reads only its own query row, its own batch's keys and values, and its own mask
  row. The blocks tile both outputs, so after the region the two arrays are the attention output and the head-mean of
  the arrays the region found.
-/
import proofs.«174445_j41566693491436_1_alg».proof.Proof.Gen.KernelIdeal.Frame
import proofs.«174445_j41566693491436_1_alg».proof.Proof.AttnPay
import Idealize.ShloMosaic.Lib.Pipeline.Value

set_option maxRecDepth 16384

noncomputable section

namespace Cert.KernelIdeal.Attn3

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Mha

variable (V : (c : Dev nD) → (b : Ref sig .tc) → Buf (Elt Ideal) ((c : Thread nD τ).loc b))

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The index maps over the grid: the query rows and the mask rows move with the outputs' rows, the batch is the
    outputs' batch in every window, keys and values are taken whole, and no block has any other offset. -/
theorem idx_facts : ∀ t : Fin cfg3.N,
    win3_0.index t (0 : Fin 4) = win3_4.index t (0 : Fin 4) ∧ win3_0.index t (1 : Fin 4) = 0
    ∧ win3_0.index t (2 : Fin 4) = win3_4.index t (2 : Fin 4) ∧ win3_0.index t (3 : Fin 4) = 0
    ∧ win3_1.index t (0 : Fin 4) = win3_4.index t (0 : Fin 4) ∧ win3_1.index t (1 : Fin 4) = 0
    ∧ win3_1.index t (2 : Fin 4) = 0 ∧ win3_1.index t (3 : Fin 4) = 0
    ∧ win3_2.index t (0 : Fin 4) = win3_4.index t (0 : Fin 4) ∧ win3_2.index t (1 : Fin 4) = 0
    ∧ win3_2.index t (2 : Fin 4) = 0 ∧ win3_2.index t (3 : Fin 4) = 0
    ∧ win3_3.index t (0 : Fin 3) = win3_4.index t (0 : Fin 4) ∧ win3_3.index t (1 : Fin 3) = win3_4.index t (2 : Fin 4)
    ∧ win3_3.index t (2 : Fin 3) = 0
    ∧ win3_4.index t (1 : Fin 4) = 0 ∧ win3_4.index t (3 : Fin 4) = 0
    ∧ win3_4.index t (0 : Fin 4) ≤ 1 ∧ win3_4.index t (2 : Fin 4) ≤ 31
    ∧ win3_5.index t (0 : Fin 3) = win3_4.index t (0 : Fin 4) ∧ win3_5.index t (1 : Fin 3) = win3_4.index t (2 : Fin 4)
    ∧ win3_5.index t (2 : Fin 3) = 0 :=
  (by decide +kernel : ∀ t : Fin grid3.N, _)

/-- Every block of rows of every batch is some point's. -/
theorem idx_onto : ∀ (q0 : Fin 2) (q2 : Fin 32), ∃ t : Fin cfg3.N, win3_4.index t = ![q0.val, 0, q2.val, 0] :=
  (by decide +kernel : ∀ (q0 : Fin 2) (q2 : Fin 32), ∃ t : Fin grid3.N, win3_4.index t = ![q0.val, 0, q2.val, 0])

/-- What point `t` writes back to the attention output is block `t` of the attention output of the arrays the region found. -/
theorem flushed4_eq (c : Dev nD) (t : Fin cfg3.N) :
    (dat3 V c).flushed 4 t = ((cfg3.win 4).blk t).view.read (Elt Ideal)
      (attnOut (B := 2) (S := 2048) (V c main_v10) (V c main_v12) (V c main_v14) (V c main_arg3)) := by
  show (cfg3.win 4).cut (grid3.coords t) ((dat3 V c).after 4 t) = _
  rw [after3_4]
  unfold out3_4
  rw [View.canon_unit_zero hz4]
  simp only [View.ld_unit_zero (S := S1x16x64x64) hz4, View.ld_unit_zero (S := S1x16x2048x64) hz4, View.ld_unit_zero (S := S1x64x2048) hz3]
  rw [AttnPay.pay3_eq]
  obtain ⟨a0, a1, a2, a3, b0, b1, b2, b3, c0, c1, c2, c3, m0, m1, m2, o1, o3, o0, o2, p0, p1, p2⟩ := idx_facts t
  funext j
  have h1 : (((cfg3.win 4).blk t).view.emb j) 1 = j 1 := Fin.ext (by
    show win3_4.index t (1 : Fin 4) * 16 + 1 * (j 1).val = (j 1).val; omega)
  have h3 : (((cfg3.win 4).blk t).view.emb j) 3 = j 3 := Fin.ext (by
    show win3_4.index t (3 : Fin 4) * 64 + 1 * (j 3).val = (j 3).val; omega)
  show attnOut (B := 1) (S := 64) (iblk3 V c 0 t) (iblk3 V c 1 t) (iblk3 V c 2 t) (iblk3 V c 3 t) (ix4 (j 0) (j 1) (j 2) (j 3))
    = attnOut (B := 2) (S := 2048) (V c main_v10) (V c main_v12) (V c main_v14) (V c main_arg3)
        (ix4 ((((cfg3.win 4).blk t).view.emb j) 0) ((((cfg3.win 4).blk t).view.emb j) 1) ((((cfg3.win 4).blk t).view.emb j) 2) ((((cfg3.win 4).blk t).view.emb j) 3))
  rw [h1, h3]
  refine attnOut_congr _ _ _ _ _ _ _ _ (j 0) ((((cfg3.win 4).blk t).view.emb j) 0) (j 1) (j 2) ((((cfg3.win 4).blk t).view.emb j) 2) (j 3)
    (fun d => ?_) (fun t' d => ?_) (fun t' => ?_) (fun t' => ?_)
  · show V c main_v10 (((cfg3.win 0).blk t).view.emb (ix4 (j 0) (j 1) (j 2) d))
      = V c main_v10 (ix4 ((((cfg3.win 4).blk t).view.emb j) 0) (j 1) ((((cfg3.win 4).blk t).view.emb j) 2) d)
    refine congrArg _ (funext fun a => Fin.ext ?_)
    match a with
    | ⟨0, _⟩ => show win3_0.index t (0 : Fin 4) * 1 + 1 * (j 0).val = win3_4.index t (0 : Fin 4) * 1 + 1 * (j 0).val; omega
    | ⟨1, _⟩ => show win3_0.index t (1 : Fin 4) * 16 + 1 * (j 1).val = (j 1).val; omega
    | ⟨2, _⟩ => show win3_0.index t (2 : Fin 4) * 64 + 1 * (j 2).val = win3_4.index t (2 : Fin 4) * 64 + 1 * (j 2).val; omega
    | ⟨3, _⟩ => show win3_0.index t (3 : Fin 4) * 64 + 1 * d.val = d.val; omega
  · show V c main_v12 (((cfg3.win 1).blk t).view.emb (ix4 (j 0) (j 1) t' d))
      = V c main_v12 (ix4 ((((cfg3.win 4).blk t).view.emb j) 0) (j 1) t' d)
    refine congrArg _ (funext fun a => Fin.ext ?_)
    match a with
    | ⟨0, _⟩ => show win3_1.index t (0 : Fin 4) * 1 + 1 * (j 0).val = win3_4.index t (0 : Fin 4) * 1 + 1 * (j 0).val; omega
    | ⟨1, _⟩ => show win3_1.index t (1 : Fin 4) * 16 + 1 * (j 1).val = (j 1).val; omega
    | ⟨2, _⟩ => show win3_1.index t (2 : Fin 4) * 2048 + 1 * t'.val = t'.val; omega
    | ⟨3, _⟩ => show win3_1.index t (3 : Fin 4) * 64 + 1 * d.val = d.val; omega
  · show V c main_arg3 (((cfg3.win 3).blk t).view.emb (ix3 (j 0) (j 2) t'))
      = V c main_arg3 (ix3 ((((cfg3.win 4).blk t).view.emb j) 0) ((((cfg3.win 4).blk t).view.emb j) 2) t')
    refine congrArg _ (funext fun a => Fin.ext ?_)
    match a with
    | ⟨0, _⟩ => show win3_3.index t (0 : Fin 3) * 1 + 1 * (j 0).val = win3_4.index t (0 : Fin 4) * 1 + 1 * (j 0).val; omega
    | ⟨1, _⟩ => show win3_3.index t (1 : Fin 3) * 64 + 1 * (j 2).val = win3_4.index t (2 : Fin 4) * 64 + 1 * (j 2).val; omega
    | ⟨2, _⟩ => show win3_3.index t (2 : Fin 3) * 2048 + 1 * t'.val = t'.val; omega
  · show V c main_v14 (((cfg3.win 2).blk t).view.emb (ix4 (j 0) (j 1) t' (j 3)))
      = V c main_v14 (ix4 ((((cfg3.win 4).blk t).view.emb j) 0) (j 1) t' (j 3))
    refine congrArg _ (funext fun a => Fin.ext ?_)
    match a with
    | ⟨0, _⟩ => show win3_2.index t (0 : Fin 4) * 1 + 1 * (j 0).val = win3_4.index t (0 : Fin 4) * 1 + 1 * (j 0).val; omega
    | ⟨1, _⟩ => show win3_2.index t (1 : Fin 4) * 16 + 1 * (j 1).val = (j 1).val; omega
    | ⟨2, _⟩ => show win3_2.index t (2 : Fin 4) * 2048 + 1 * t'.val = t'.val; omega
    | ⟨3, _⟩ => show win3_2.index t (3 : Fin 4) * 64 + 1 * (j 3).val = (j 3).val; omega

/-- What point `t` writes back to the head-mean is block `t` of the head-mean of the arrays the region found. -/
theorem flushed5_eq (c : Dev nD) (t : Fin cfg3.N) :
    (dat3 V c).flushed 5 t = ((cfg3.win 5).blk t).view.read (Elt Ideal)
      (attnMean (B := 2) (S := 2048) (V c main_v10) (V c main_v12) (V c main_arg3)) := by
  show (cfg3.win 5).cut (grid3.coords t) ((dat3 V c).after 5 t) = _
  rw [after3_5]
  unfold out3_5
  rw [View.canon_unit_zero hz3]
  simp only [View.ld_unit_zero (S := S1x16x64x64) hz4, View.ld_unit_zero (S := S1x16x2048x64) hz4, View.ld_unit_zero (S := S1x64x2048) hz3]
  rw [AttnPay.pay5_eq]
  obtain ⟨a0, a1, a2, a3, b0, b1, b2, b3, c0, c1, c2, c3, m0, m1, m2, o1, o3, o0, o2, p0, p1, p2⟩ := idx_facts t
  funext j
  have h2 : (((cfg3.win 5).blk t).view.emb j) 2 = j 2 := Fin.ext (by
    show win3_5.index t (2 : Fin 3) * 2048 + 1 * (j 2).val = (j 2).val; omega)
  show attnMean (B := 1) (S := 64) (iblk3 V c 0 t) (iblk3 V c 1 t) (iblk3 V c 3 t) (ix3 (j 0) (j 1) (j 2))
    = attnMean (B := 2) (S := 2048) (V c main_v10) (V c main_v12) (V c main_arg3)
        (ix3 ((((cfg3.win 5).blk t).view.emb j) 0) ((((cfg3.win 5).blk t).view.emb j) 1) ((((cfg3.win 5).blk t).view.emb j) 2))
  rw [h2]
  refine attnMean_congr _ _ _ _ _ _ (j 0) ((((cfg3.win 5).blk t).view.emb j) 0) (j 1) ((((cfg3.win 5).blk t).view.emb j) 1) (j 2)
    (fun h d => ?_) (fun h t' d => ?_) (fun t' => ?_)
  · show V c main_v10 (((cfg3.win 0).blk t).view.emb (ix4 (j 0) h (j 1) d))
      = V c main_v10 (ix4 ((((cfg3.win 5).blk t).view.emb j) 0) h ((((cfg3.win 5).blk t).view.emb j) 1) d)
    refine congrArg _ (funext fun a => Fin.ext ?_)
    match a with
    | ⟨0, _⟩ => show win3_0.index t (0 : Fin 4) * 1 + 1 * (j 0).val = win3_5.index t (0 : Fin 3) * 1 + 1 * (j 0).val; omega
    | ⟨1, _⟩ => show win3_0.index t (1 : Fin 4) * 16 + 1 * h.val = h.val; omega
    | ⟨2, _⟩ => show win3_0.index t (2 : Fin 4) * 64 + 1 * (j 1).val = win3_5.index t (1 : Fin 3) * 64 + 1 * (j 1).val; omega
    | ⟨3, _⟩ => show win3_0.index t (3 : Fin 4) * 64 + 1 * d.val = d.val; omega
  · show V c main_v12 (((cfg3.win 1).blk t).view.emb (ix4 (j 0) h t' d))
      = V c main_v12 (ix4 ((((cfg3.win 5).blk t).view.emb j) 0) h t' d)
    refine congrArg _ (funext fun a => Fin.ext ?_)
    match a with
    | ⟨0, _⟩ => show win3_1.index t (0 : Fin 4) * 1 + 1 * (j 0).val = win3_5.index t (0 : Fin 3) * 1 + 1 * (j 0).val; omega
    | ⟨1, _⟩ => show win3_1.index t (1 : Fin 4) * 16 + 1 * h.val = h.val; omega
    | ⟨2, _⟩ => show win3_1.index t (2 : Fin 4) * 2048 + 1 * t'.val = t'.val; omega
    | ⟨3, _⟩ => show win3_1.index t (3 : Fin 4) * 64 + 1 * d.val = d.val; omega
  · show V c main_arg3 (((cfg3.win 3).blk t).view.emb (ix3 (j 0) (j 1) t'))
      = V c main_arg3 (ix3 ((((cfg3.win 5).blk t).view.emb j) 0) ((((cfg3.win 5).blk t).view.emb j) 1) t')
    refine congrArg _ (funext fun a => Fin.ext ?_)
    match a with
    | ⟨0, _⟩ => show win3_3.index t (0 : Fin 3) * 1 + 1 * (j 0).val = win3_5.index t (0 : Fin 3) * 1 + 1 * (j 0).val; omega
    | ⟨1, _⟩ => show win3_3.index t (1 : Fin 3) * 64 + 1 * (j 1).val = win3_5.index t (1 : Fin 3) * 64 + 1 * (j 1).val; omega
    | ⟨2, _⟩ => show win3_3.index t (2 : Fin 3) * 2048 + 1 * t'.val = t'.val; omega

theorem mem_blk4 (t : Fin cfg3.N) (i : S2x16x2048x64.Idx) :
    i ∈ ((cfg3.win 4).blk t).view.set ↔ ∀ a : Fin 4, win3_4.index t a * S1x16x64x64.size a ≤ (i a).val ∧ (i a).val < win3_4.index t a * S1x16x64x64.size a + S1x16x64x64.size a := by
  show i ∈ ((View.whole main_v15_0).slice (win3_4.rect t)).set ↔ _
  rw [View.set_slice_whole, Rect.mem_set_unit]
  exact Iff.rfl

theorem mem_blk5 (t : Fin cfg3.N) (i : S2x2048x2048.Idx) :
    i ∈ ((cfg3.win 5).blk t).view.set ↔ ∀ a : Fin 3, win3_5.index t a * S1x64x2048.size a ≤ (i a).val ∧ (i a).val < win3_5.index t a * S1x64x2048.size a + S1x64x2048.size a := by
  show i ∈ ((View.whole main_v15_1).slice (win3_5.rect t)).set ↔ _
  rw [View.set_slice_whole, Rect.mem_set_unit]
  exact Iff.rfl

/-- The blocks tile the attention output: row `s` of batch `b` is in the block of point `(b, s / 64)`. -/
theorem cover4 (i : S2x16x2048x64.Idx) : ∃ t : Fin cfg3.N, (cfg3.win 4).flush t = true ∧ i ∈ ((cfg3.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 2).val / 64, by omega⟩
  have q0 : win3_4.index t (0 : Fin 4) = (i 0).val := congrFun ht 0
  have q1 : win3_4.index t (1 : Fin 4) = 0 := congrFun ht 1
  have q2 : win3_4.index t (2 : Fin 4) = (i 2).val / 64 := congrFun ht 2
  have q3 : win3_4.index t (3 : Fin 4) = 0 := congrFun ht 3
  refine ⟨t, flush3_4 t, ?_⟩
  rw [mem_blk4]
  intro a
  match a with
  | ⟨0, _⟩ => show win3_4.index t (0 : Fin 4) * 1 ≤ (i 0).val ∧ (i 0).val < win3_4.index t (0 : Fin 4) * 1 + 1; omega
  | ⟨1, _⟩ => show win3_4.index t (1 : Fin 4) * 16 ≤ (i 1).val ∧ (i 1).val < win3_4.index t (1 : Fin 4) * 16 + 16; omega
  | ⟨2, _⟩ => show win3_4.index t (2 : Fin 4) * 64 ≤ (i 2).val ∧ (i 2).val < win3_4.index t (2 : Fin 4) * 64 + 64; omega
  | ⟨3, _⟩ => show win3_4.index t (3 : Fin 4) * 64 ≤ (i 3).val ∧ (i 3).val < win3_4.index t (3 : Fin 4) * 64 + 64; omega

/-- The blocks tile the head-mean likewise. -/
theorem cover5 (i : S2x2048x2048.Idx) : ∃ t : Fin cfg3.N, (cfg3.win 5).flush t = true ∧ i ∈ ((cfg3.win 5).blk t).view.set := by
  have hi0 : (i 0).val < 2 := (i 0).isLt
  have hi1 : (i 1).val < 2048 := (i 1).isLt
  have hi2 : (i 2).val < 2048 := (i 2).isLt
  obtain ⟨t, ht⟩ := idx_onto ⟨(i 0).val, hi0⟩ ⟨(i 1).val / 64, by omega⟩
  have q0 : win3_4.index t (0 : Fin 4) = (i 0).val := congrFun ht 0
  have q2 : win3_4.index t (2 : Fin 4) = (i 1).val / 64 := congrFun ht 2
  obtain ⟨a0, a1, a2, a3, b0, b1, b2, b3, c0, c1, c2, c3, m0, m1, m2, o1, o3, o0, o2, p0, p1, p2⟩ := idx_facts t
  refine ⟨t, flush3_5 t, ?_⟩
  rw [mem_blk5]
  intro a
  match a with
  | ⟨0, _⟩ => show win3_5.index t (0 : Fin 3) * 1 ≤ (i 0).val ∧ (i 0).val < win3_5.index t (0 : Fin 3) * 1 + 1; omega
  | ⟨1, _⟩ => show win3_5.index t (1 : Fin 3) * 64 ≤ (i 1).val ∧ (i 1).val < win3_5.index t (1 : Fin 3) * 64 + 64; omega
  | ⟨2, _⟩ => show win3_5.index t (2 : Fin 3) * 2048 ≤ (i 2).val ∧ (i 2).val < win3_5.index t (2 : Fin 3) * 2048 + 2048; omega

/-- After the region the attention output array is the attention output of the arrays the region found. -/
theorem final4 (c : Dev nD) :
    (dat3 V c).arrAt 4 cfg3.N = attnOut (B := 2) (S := 2048) (V c main_v10) (V c main_v12) (V c main_v14) (V c main_arg3) :=
  (dat3 V c).arrAt_eq_of_cover 4 _ (fun t _ => flushed4_eq V c t) cover4

/-- … and the head-mean array is their head-mean. -/
theorem final5 (c : Dev nD) :
    (dat3 V c).arrAt 5 cfg3.N = attnMean (B := 2) (S := 2048) (V c main_v10) (V c main_v12) (V c main_arg3) :=
  (dat3 V c).arrAt_eq_of_cover 5 _ (fun t _ => flushed5_eq V c t) cover5

end Cert.KernelIdeal.Attn3

end
-- ==== Proof.Layout.lean ====
/-
  The two re-layouts around the attention: a projection split into heads, and the heads merged into the last layer.

  The tokens are 2048 positions of 2 batches, row `2·s + b` of a `4096 × 1024` array. A projection applies a linear layer to
  the token rows, cuts each row of 1024 into sixteen heads of width 64, and brings batch and head to the front. The merge
  puts position and batch back in front, joins the heads into rows of 1024, applies the last linear layer and restores
  the `2048 × 2 × 1024` arrangement.
-/
import proofs.«174445_j41566693491436_1_alg».proof.KernelIdeal
import proofs.«174445_j41566693491436_1_alg».proof.Proof.Gen.KernelIdeal
import proofs.«174445_j41566693491436_1_alg».proof.Proof.Spec
import Idealize.ShloMosaic.Lib.Pipeline.Value

noncomputable section

namespace Cert.KernelIdeal.Layout

open Idealize.ShloMosaic Idealize.ShloMosaic.ValueIdx Cert.KernelIdeal Cert.Mha
open Cert.KernelIdeal.Facts₀ Cert.KernelIdeal.Facts

/-- A projection and its split into heads. -/
def proj (x : S2048x2x1024.Idx → EReal) (w : S1024x1024.Idx → EReal) (b : S1024.Idx → EReal) : S2x16x2048x64.Idx → EReal :=
  transpose S2x16x2048x64 [1, 2, 0, 3]
    (shapeCast S2048x2x16x64 (rowsAffine (N := 4096) (shapeCast S4096x1024 x shapeCasts_S2048x2x1024_S4096x1024) w
      (shapeCast S1x1024 b shapeCasts_S1024_S1x1024)) shapeCasts_S4096x1024_S2048x2x16x64)
    transposes_S2048x2x16x64_S2x16x2048x64_1_2_0_3

/-- The heads merged back into token rows, and the last linear layer. -/
def merge (o : S2x16x2048x64.Idx → EReal) (w : S1024x1024.Idx → EReal) (b : S1024.Idx → EReal) : S2048x2x1024.Idx → EReal :=
  shapeCast S2048x2x1024
    (rowsAffine (N := 4096)
      (shapeCast S4096x1024 (transpose S2048x2x16x64 [2, 0, 1, 3] o transposes_S2x16x2048x64_S2048x2x16x64_2_0_1_3) shapeCasts_S2048x2x16x64_S4096x1024)
      w (shapeCast S1x1024 b shapeCasts_S1024_S1x1024))
    shapeCasts_S4096x1024_S2048x2x1024

end Cert.KernelIdeal.Layout

end
-- ==== Proof.KernelValue.lean ====
/-
  The kernel's two results as whole-array functions of its arguments.

  The run's last boundary is the launch memory carried through six stretches of host operations and five regions.
  Read backwards from a result buffer: the final output is a reshape of the last linear layer's output array; that
  layer read a reshape of a transpose of the attention output array, the output weight matrix and the output bias as
  one row; the attention region read three arrays, each a transpose of a reshape of one of the first three linear
  layers' output arrays, and the mask; and each of those layers read a reshape of one argument, a weight matrix and a bias
  as one row. A buffer that a stretch or a region does not write holds after it what it held before; a region's
  output array holds the whole-array function of what the region found. The head-mean result is the attention region's
  second output, untouched afterwards.
-/
import proofs.«174445_j41566693491436_1_alg».proof.Proof.Gen.KernelIdeal.Frame
import proofs.«174445_j41566693491436_1_alg».proof.Proof.Lin0
import proofs.«174445_j41566693491436_1_alg».proof.Proof.Lin1
import proofs.«174445_j41566693491436_1_alg».proof.Proof.Lin2
import proofs.«174445_j41566693491436_1_alg».proof.Proof.Lin4
import proofs.«174445_j41566693491436_1_alg».proof.Proof.Attn3
import proofs.«174445_j41566693491436_1_alg».proof.Proof.Layout
import Idealize.ShloMosaic.Lib.StableHlo.Run

set_option maxRecDepth 16384

noncomputable section

namespace Cert.KernelIdeal.Walk

open Idealize.ShloMosaic Idealize.ShloMosaic.TcCoe Idealize.ShloMosaic.ValueIdx Idealize.SL.Sem Idealize.ShloMosaic.StableHlo
open Cert.KernelIdeal Cert.KernelIdeal.Gen Cert.Mha Cert.KernelIdeal.Layout

variable (m : (ℓ : Loc nD τ sig) → Buf (Elt Ideal) ℓ) (ρ : Dev nD → PrngReg) (c : Dev nD)

/-- A stretch of host operations leaves a buffer none of them writes as it was. -/
local macro "unwritten" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes, StableHlo.quaternary_writes,
      StableHlo.reshape_writes, StableHlo.binaryIndexed_writes, Finset.mem_singleton]
    repeat' apply And.intro
    all_goals exact StableHlo.devRef_ne_of_ne (by decide))))

/-! ## Buffers carried unchanged across stretches and regions -/

theorem arg4_at1 : W1 m ρ c (Proc.devRef .tc main_arg4) = m ((c : Thread nD τ).loc main_arg4) :=
  calc W1 m ρ c (Proc.devRef .tc main_arg4)
    _ = W0 m ρ c (Proc.devRef .tc main_arg4) := by unwritten hostOps0
    _ = m ((c : Thread nD τ).loc main_arg4) := rfl

theorem arg6_at3 : W3 m ρ c (Proc.devRef .tc main_arg6) = m ((c : Thread nD τ).loc main_arg6) :=
  calc W3 m ρ c (Proc.devRef .tc main_arg6)
    _ = W2 m ρ c (Proc.devRef .tc main_arg6) := by unwritten hostOps1
    _ = W1 m ρ c (Proc.devRef .tc main_arg6) := W2_of_ne m ρ c main_arg6 (by decide)
    _ = W0 m ρ c (Proc.devRef .tc main_arg6) := by unwritten hostOps0
    _ = m ((c : Thread nD τ).loc main_arg6) := rfl

theorem arg7_at2 : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by unwritten hostOps0
    _ = m ((c : Thread nD τ).loc main_arg7) := rfl

theorem arg8_at5 : W5 m ρ c (Proc.devRef .tc main_arg8) = m ((c : Thread nD τ).loc main_arg8) :=
  calc W5 m ρ c (Proc.devRef .tc main_arg8)
    _ = W4 m ρ c (Proc.devRef .tc main_arg8) := by unwritten hostOps2
    _ = W3 m ρ c (Proc.devRef .tc main_arg8) := W4_of_ne m ρ c main_arg8 (by decide)
    _ = W2 m ρ c (Proc.devRef .tc main_arg8) := by unwritten hostOps1
    _ = W1 m ρ c (Proc.devRef .tc main_arg8) := W2_of_ne m ρ c main_arg8 (by decide)
    _ = W0 m ρ c (Proc.devRef .tc main_arg8) := by unwritten hostOps0
    _ = m ((c : Thread nD τ).loc main_arg8) := rfl

theorem arg9_at4 : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := by unwritten hostOps1
    _ = W1 m ρ c (Proc.devRef .tc main_arg9) := W2_of_ne m ρ c main_arg9 (by decide)
    _ = W0 m ρ c (Proc.devRef .tc main_arg9) := by unwritten hostOps0
    _ = m ((c : Thread nD τ).loc main_arg9) := rfl

theorem arg3_at7 : W7 m ρ c (Proc.devRef .tc main_arg3) = m ((c : Thread nD τ).loc main_arg3) :=
  calc W7 m ρ c (Proc.devRef .tc main_arg3)
    _ = W6 m ρ c (Proc.devRef .tc main_arg3) := by unwritten hostOps3
    _ = W5 m ρ c (Proc.devRef .tc main_arg3) := W6_of_ne m ρ c main_arg3 (by decide)
    _ = W4 m ρ c (Proc.devRef .tc main_arg3) := by unwritten hostOps2
    _ = W3 m ρ c (Proc.devRef .tc main_arg3) := W4_of_ne m ρ c main_arg3 (by decide)
    _ = W2 m ρ c (Proc.devRef .tc main_arg3) := by unwritten hostOps1
    _ = W1 m ρ c (Proc.devRef .tc main_arg3) := W2_of_ne m ρ c main_arg3 (by decide)
    _ = W0 m ρ c (Proc.devRef .tc main_arg3) := by unwritten hostOps0
    _ = m ((c : Thread nD τ).loc main_arg3) := rfl

theorem arg11_at8 : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := by unwritten hostOps3
    _ = W5 m ρ c (Proc.devRef .tc main_arg11) := W6_of_ne m ρ c main_arg11 (by decide)
    _ = W4 m ρ c (Proc.devRef .tc main_arg11) := by unwritten hostOps2
    _ = W3 m ρ c (Proc.devRef .tc main_arg11) := W4_of_ne m ρ c main_arg11 (by decide)
    _ = W2 m ρ c (Proc.devRef .tc main_arg11) := by unwritten hostOps1
    _ = W1 m ρ c (Proc.devRef .tc main_arg11) := W2_of_ne m ρ c main_arg11 (by decide)
    _ = W0 m ρ c (Proc.devRef .tc main_arg11) := by unwritten hostOps0
    _ = m ((c : Thread nD τ).loc main_arg11) := rfl

theorem arg10_at9 : W9 m ρ c (Proc.devRef .tc main_arg10) = m ((c : Thread nD τ).loc main_arg10) :=
  calc W9 m ρ c (Proc.devRef .tc main_arg10)
    _ = W8 m ρ c (Proc.devRef .tc main_arg10) := by unwritten hostOps4
    _ = W7 m ρ c (Proc.devRef .tc main_arg10) := W8_of_ne m ρ c main_arg10 (by decide)
    _ = W6 m ρ c (Proc.devRef .tc main_arg10) := by unwritten hostOps3
    _ = W5 m ρ c (Proc.devRef .tc main_arg10) := W6_of_ne m ρ c main_arg10 (by decide)
    _ = W4 m ρ c (Proc.devRef .tc main_arg10) := by unwritten hostOps2
    _ = W3 m ρ c (Proc.devRef .tc main_arg10) := W4_of_ne m ρ c main_arg10 (by decide)
    _ = W2 m ρ c (Proc.devRef .tc main_arg10) := by unwritten hostOps1
    _ = W1 m ρ c (Proc.devRef .tc main_arg10) := W2_of_ne m ρ c main_arg10 (by decide)
    _ = W0 m ρ c (Proc.devRef .tc main_arg10) := by unwritten hostOps0
    _ = m ((c : Thread nD τ).loc main_arg10) := rfl

theorem v1_at3 : W3 m ρ c (Proc.devRef .tc main_v1) = W1 m ρ c (Proc.devRef .tc main_v1) :=
  calc W3 m ρ c (Proc.devRef .tc main_v1)
    _ = W2 m ρ c (Proc.devRef .tc main_v1) := by unwritten hostOps1
    _ = W1 m ρ c (Proc.devRef .tc main_v1) := W2_of_ne m ρ c main_v1 (by decide)

theorem v2_at5 : W5 m ρ c (Proc.devRef .tc main_v2) = W1 m ρ c (Proc.devRef .tc main_v2) :=
  calc W5 m ρ c (Proc.devRef .tc main_v2)
    _ = W4 m ρ c (Proc.devRef .tc main_v2) := by unwritten hostOps2
    _ = W3 m ρ c (Proc.devRef .tc main_v2) := W4_of_ne m ρ c main_v2 (by decide)
    _ = W2 m ρ c (Proc.devRef .tc main_v2) := by unwritten hostOps1
    _ = W1 m ρ c (Proc.devRef .tc main_v2) := W2_of_ne m ρ c main_v2 (by decide)

theorem v4_at6 : W6 m ρ c (Proc.devRef .tc main_v4) = W2 m ρ c (Proc.devRef .tc main_v4) :=
  calc W6 m ρ c (Proc.devRef .tc main_v4)
    _ = W5 m ρ c (Proc.devRef .tc main_v4) := W6_of_ne m ρ c main_v4 (by decide)
    _ = W4 m ρ c (Proc.devRef .tc main_v4) := by unwritten hostOps2
    _ = W3 m ρ c (Proc.devRef .tc main_v4) := W4_of_ne m ρ c main_v4 (by decide)
    _ = W2 m ρ c (Proc.devRef .tc main_v4) := by unwritten hostOps1

theorem v6_at6 : W6 m ρ c (Proc.devRef .tc main_v6) = W4 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by unwritten hostOps2

theorem v15_1_at11 : W11 m ρ c (Proc.devRef .tc main_v15_1) = W8 m ρ c (Proc.devRef .tc main_v15_1) :=
  calc W11 m ρ c (Proc.devRef .tc main_v15_1)
    _ = W10 m ρ c (Proc.devRef .tc main_v15_1) := by unwritten hostOps5
    _ = W9 m ρ c (Proc.devRef .tc main_v15_1) := W10_of_ne m ρ c main_v15_1 (by decide)
    _ = W8 m ρ c (Proc.devRef .tc main_v15_1) := by unwritten hostOps4

/-! ## The first three linear layers -/

theorem v0_at1 : W1 m ρ c (Proc.devRef .tc main_v0)
    = shapeCast S4096x1024 (m ((c : Thread nD τ).loc main_arg0)) shapeCasts_S2048x2x1024_S4096x1024 := by
  show StableHlo.after hostOps0 (W0 m ρ c) (Proc.devRef .tc main_v0) = _
  after_results
  rfl

theorem v1_at1 : W1 m ρ c (Proc.devRef .tc main_v1)
    = shapeCast S4096x1024 (m ((c : Thread nD τ).loc main_arg1)) shapeCasts_S2048x2x1024_S4096x1024 := by
  show StableHlo.after hostOps0 (W0 m ρ c) (Proc.devRef .tc main_v1) = _
  after_results
  rfl

theorem v2_at1 : W1 m ρ c (Proc.devRef .tc main_v2)
    = shapeCast S4096x1024 (m ((c : Thread nD τ).loc main_arg2)) shapeCasts_S2048x2x1024_S4096x1024 := by
  show StableHlo.after hostOps0 (W0 m ρ c) (Proc.devRef .tc main_v2) = _
  after_results
  rfl

theorem v3_at1 : W1 m ρ c (Proc.devRef .tc main_v3)
    = shapeCast S1x1024 (m ((c : Thread nD τ).loc main_arg5)) shapeCasts_S1024_S1x1024 := by
  show StableHlo.after hostOps0 (W0 m ρ c) (Proc.devRef .tc main_v3) = _
  after_results
  rfl

theorem v5_at3 : W3 m ρ c (Proc.devRef .tc main_v5)
    = shapeCast S1x1024 (m ((c : Thread nD τ).loc main_arg7)) shapeCasts_S1024_S1x1024 := by
  show StableHlo.after hostOps1 (W2 m ρ c) (Proc.devRef .tc main_v5) = _
  after_results
  rw [arg7_at2]
  rfl

theorem v7_at5 : W5 m ρ c (Proc.devRef .tc main_v7)
    = shapeCast S1x1024 (m ((c : Thread nD τ).loc main_arg9)) shapeCasts_S1024_S1x1024 := by
  show StableHlo.after hostOps2 (W4 m ρ c) (Proc.devRef .tc main_v7) = _
  after_results
  rw [arg9_at4]
  rfl

/-- The query layer's output array. -/
theorem v4_at2 : W2 m ρ c (Proc.devRef .tc main_v4)
    = rowsAffine (N := 4096) (shapeCast S4096x1024 (m ((c : Thread nD τ).loc main_arg0)) shapeCasts_S2048x2x1024_S4096x1024)
        (m ((c : Thread nD τ).loc main_arg4)) (shapeCast S1x1024 (m ((c : Thread nD τ).loc main_arg5)) shapeCasts_S1024_S1x1024) := by
  refine (W2_arr m ρ c 3).trans ?_
  refine (Lin0.final (V1 m ρ) c).trans ?_
  show rowsAffine (N := 4096) (W1 m ρ c (Proc.devRef .tc main_v0)) (W1 m ρ c (Proc.devRef .tc main_arg4)) (W1 m ρ c (Proc.devRef .tc main_v3)) = _
  rw [v0_at1, arg4_at1, v3_at1]

/-- The key layer's output array. -/
theorem v6_at4 : W4 m ρ c (Proc.devRef .tc main_v6)
    = rowsAffine (N := 4096) (shapeCast S4096x1024 (m ((c : Thread nD τ).loc main_arg1)) shapeCasts_S2048x2x1024_S4096x1024)
        (m ((c : Thread nD τ).loc main_arg6)) (shapeCast S1x1024 (m ((c : Thread nD τ).loc main_arg7)) shapeCasts_S1024_S1x1024) := by
  refine (W4_arr m ρ c 3).trans ?_
  refine (Lin1.final (V3 m ρ) c).trans ?_
  show rowsAffine (N := 4096) (W3 m ρ c (Proc.devRef .tc main_v1)) (W3 m ρ c (Proc.devRef .tc main_arg6)) (W3 m ρ c (Proc.devRef .tc main_v5)) = _
  rw [v1_at3, v1_at1, arg6_at3, v5_at3]

/-- The value layer's output array. -/
theorem v8_at6 : W6 m ρ c (Proc.devRef .tc main_v8)
    = rowsAffine (N := 4096) (shapeCast S4096x1024 (m ((c : Thread nD τ).loc main_arg2)) shapeCasts_S2048x2x1024_S4096x1024)
        (m ((c : Thread nD τ).loc main_arg8)) (shapeCast S1x1024 (m ((c : Thread nD τ).loc main_arg9)) shapeCasts_S1024_S1x1024) := by
  refine (W6_arr m ρ c 3).trans ?_
  refine (Lin2.final (V5 m ρ) c).trans ?_
  show rowsAffine (N := 4096) (W5 m ρ c (Proc.devRef .tc main_v2)) (W5 m ρ c (Proc.devRef .tc main_arg8)) (W5 m ρ c (Proc.devRef .tc main_v7)) = _
  rw [v2_at5, v2_at1, arg8_at5, v7_at5]

/-! ## The attention region's inputs and outputs -/

theorem v10_at7 : W7 m ρ c (Proc.devRef .tc main_v10)
    = proj (m ((c : Thread nD τ).loc main_arg0)) (m ((c : Thread nD τ).loc main_arg4)) (m ((c : Thread nD τ).loc main_arg5)) := by
  show StableHlo.after hostOps3 (W6 m ρ c) (Proc.devRef .tc main_v10) = _
  after_results
  rw [v4_at6, v4_at2]
  rfl

theorem v12_at7 : W7 m ρ c (Proc.devRef .tc main_v12)
    = proj (m ((c : Thread nD τ).loc main_arg1)) (m ((c : Thread nD τ).loc main_arg6)) (m ((c : Thread nD τ).loc main_arg7)) := by
  show StableHlo.after hostOps3 (W6 m ρ c) (Proc.devRef .tc main_v12) = _
  after_results
  rw [v6_at6, v6_at4]
  rfl

theorem v14_at7 : W7 m ρ c (Proc.devRef .tc main_v14)
    = proj (m ((c : Thread nD τ).loc main_arg2)) (m ((c : Thread nD τ).loc main_arg8)) (m ((c : Thread nD τ).loc main_arg9)) := by
  show StableHlo.after hostOps3 (W6 m ρ c) (Proc.devRef .tc main_v14) = _
  after_results
  rw [v8_at6]
  rfl

/-- The attention output array. -/
theorem v15_0_at8 : W8 m ρ c (Proc.devRef .tc main_v15_0)
    = attnOut (B := 2) (S := 2048)
        (proj (m ((c : Thread nD τ).loc main_arg0)) (m ((c : Thread nD τ).loc main_arg4)) (m ((c : Thread nD τ).loc main_arg5)))
        (proj (m ((c : Thread nD τ).loc main_arg1)) (m ((c : Thread nD τ).loc main_arg6)) (m ((c : Thread nD τ).loc main_arg7)))
        (proj (m ((c : Thread nD τ).loc main_arg2)) (m ((c : Thread nD τ).loc main_arg8)) (m ((c : Thread nD τ).loc main_arg9)))
        (m ((c : Thread nD τ).loc main_arg3)) := by
  refine (W8_arr m ρ c 4).trans ?_
  refine (Attn3.final4 (V7 m ρ) c).trans ?_
  show attnOut (B := 2) (S := 2048) (W7 m ρ c (Proc.devRef .tc main_v10)) (W7 m ρ c (Proc.devRef .tc main_v12))
    (W7 m ρ c (Proc.devRef .tc main_v14)) (W7 m ρ c (Proc.devRef .tc main_arg3)) = _
  rw [v10_at7, v12_at7, v14_at7, arg3_at7]

/-- The head-mean array. -/
theorem v15_1_at8 : W8 m ρ c (Proc.devRef .tc main_v15_1)
    = attnMean (B := 2) (S := 2048)
        (proj (m ((c : Thread nD τ).loc main_arg0)) (m ((c : Thread nD τ).loc main_arg4)) (m ((c : Thread nD τ).loc main_arg5)))
        (proj (m ((c : Thread nD τ).loc main_arg1)) (m ((c : Thread nD τ).loc main_arg6)) (m ((c : Thread nD τ).loc main_arg7)))
        (m ((c : Thread nD τ).loc main_arg3)) := by
  refine (W8_arr m ρ c 5).trans ?_
  refine (Attn3.final5 (V7 m ρ) c).trans ?_
  show attnMean (B := 2) (S := 2048) (W7 m ρ c (Proc.devRef .tc main_v10)) (W7 m ρ c (Proc.devRef .tc main_v12))
    (W7 m ρ c (Proc.devRef .tc main_arg3)) = _
  rw [v10_at7, v12_at7, arg3_at7]

/-! ## The last linear layer and the two results -/

theorem v17_at9 : W9 m ρ c (Proc.devRef .tc main_v17)
    = shapeCast S4096x1024 (transpose S2048x2x16x64 [2, 0, 1, 3] (W8 m ρ c (Proc.devRef .tc main_v15_0)) transposes_S2x16x2048x64_S2048x2x16x64_2_0_1_3)
        shapeCasts_S2048x2x16x64_S4096x1024 := by
  show StableHlo.after hostOps4 (W8 m ρ c) (Proc.devRef .tc main_v17) = _
  after_results
  rfl

theorem v18_at9 : W9 m ρ c (Proc.devRef .tc main_v18)
    = shapeCast S1x1024 (m ((c : Thread nD τ).loc main_arg11)) shapeCasts_S1024_S1x1024 := by
  show StableHlo.after hostOps4 (W8 m ρ c) (Proc.devRef .tc main_v18) = _
  after_results
  rw [arg11_at8]
  rfl

/-- THE FIRST RESULT: the output of the layer. -/
theorem out_eq : W11 m ρ c (Proc.devRef .tc main_v20)
    = merge (attnOut (B := 2) (S := 2048)
        (proj (m ((c : Thread nD τ).loc main_arg0)) (m ((c : Thread nD τ).loc main_arg4)) (m ((c : Thread nD τ).loc main_arg5)))
        (proj (m ((c : Thread nD τ).loc main_arg1)) (m ((c : Thread nD τ).loc main_arg6)) (m ((c : Thread nD τ).loc main_arg7)))
        (proj (m ((c : Thread nD τ).loc main_arg2)) (m ((c : Thread nD τ).loc main_arg8)) (m ((c : Thread nD τ).loc main_arg9)))
        (m ((c : Thread nD τ).loc main_arg3)))
      (m ((c : Thread nD τ).loc main_arg10)) (m ((c : Thread nD τ).loc main_arg11)) := by
  show StableHlo.after hostOps5 (W10 m ρ c) (Proc.devRef .tc main_v20) = _
  after_results
  have e19 : W10 m ρ c (Proc.devRef .tc main_v19)
      = rowsAffine (N := 4096) (W9 m ρ c (Proc.devRef .tc main_v17)) (W9 m ρ c (Proc.devRef .tc main_arg10)) (W9 m ρ c (Proc.devRef .tc main_v18)) :=
    (W10_arr m ρ c 3).trans (Lin4.final (V9 m ρ) c)
  rw [e19, v17_at9, v18_at9, arg10_at9, v15_0_at8]
  rfl

/-- THE SECOND RESULT: the attention weights averaged over the heads. -/
theorem mean_eq : W11 m ρ c (Proc.devRef .tc main_v15_1)
    = attnMean (B := 2) (S := 2048)
        (proj (m ((c : Thread nD τ).loc main_arg0)) (m ((c : Thread nD τ).loc main_arg4)) (m ((c : Thread nD τ).loc main_arg5)))
        (proj (m ((c : Thread nD τ).loc main_arg1)) (m ((c : Thread nD τ).loc main_arg6)) (m ((c : Thread nD τ).loc main_arg7)))
        (m ((c : Thread nD τ).loc main_arg3)) :=
  (v15_1_at11 m ρ c).trans (v15_1_at8 m ρ c)

end Cert.KernelIdeal.Walk

end
-- ==== Proof.RefValue.lean ====
/-
  The reference's two results as the same whole-array functions of its arguments.

  The reference applies each linear layer to the `2048 × 2 × 1024` arrays directly, cuts the last axis into heads and
  transposes; that is the projection. It divides the products of queries and keys by the pattern of eight — which on
  every extended real is multiplying by one eighth —, adds the mask, takes each row's maximum from −∞ and floors it at −∞
  once more (no change: −∞ is the least extended real), exponentiates the shifted scores, starts each row's sum at
  zero, and divides; those are the attention weights. The weights against the values are the attention output; the heads
  merged and put through the last layer are the first result; the weights summed over the heads from zero and divided by
  the pattern of sixteen — multiplied by one sixteenth — are the second.
-/
import proofs.«174445_j41566693491436_1_alg».proof.Proof.Gen.ReferenceIdeal.Read
import proofs.«174445_j41566693491436_1_alg».proof.Proof.Layout
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Idealize.ShloMosaic Idealize.ShloMosaic.ValueIdx Cert.ReferenceIdeal Cert.ReferenceIdeal.Read Cert.Mha
open Cert.ReferenceIdeal.Facts₀ Cert.ReferenceIdeal.Facts

abbrev A3 := (⟨S2048x2x1024, .f32⟩ : BufTy).Contents (Elt Ideal)
abbrev AM := (⟨S2x2048x2048, .f32⟩ : BufTy).Contents (Elt Ideal)
abbrev AW := (⟨S1024x1024, .f32⟩ : BufTy).Contents (Elt Ideal)
abbrev AB := (⟨S1024, .f32⟩ : BufTy).Contents (Elt Ideal)

/-! ## The projections -/

/-- Token row `2·s + b`, cut into heads: the reference's layer on `(s, b)` is the layer on that row. -/
theorem layer_split (x0 : A3) (x4 : AW) (x5 : AB) :
    val_main_v4 (F := Ideal) x0 x4 x5
      = shapeCast Cert.KernelIdeal.S2048x2x16x64 (rowsAffine (N := 4096)
          (shapeCast Cert.KernelIdeal.S4096x1024 x0 Cert.KernelIdeal.Facts₀.shapeCasts_S2048x2x1024_S4096x1024) x4
          (shapeCast Cert.KernelIdeal.S1x1024 x5 Cert.KernelIdeal.Facts₀.shapeCasts_S1024_S1x1024))
          Cert.KernelIdeal.Facts₀.shapeCasts_S4096x1024_S2048x2x16x64 := by
  funext i
  obtain ⟨s, b, h, d, rfl⟩ : ∃ (s : Fin 2048) (b : Fin 2) (h : Fin 16) (d : Fin 64), i = ix4 s b h d := ⟨i 0, i 1, i 2, i 3, eq_ix4 i⟩
  have hs : s.val < 2048 := s.isLt
  have hb : b.val < 2 := b.isLt
  have hh : h.val < 16 := h.isLt
  have hd : d.val < 64 := d.isLt
  let r : Fin 4096 := ⟨s.val * 2 + b.val, by omega⟩
  let n : Fin 1024 := ⟨h.val * 64 + d.val, by omega⟩
  rw [val_main_v4_apply, val_main_v3_apply, val_main_v0_apply, val_main_v2_apply, val_main_v1_apply]
  refine Eq.symm ((shapeCast_apply _ _ (ix4 s b h d) (ix2 r n) (by
    rw [Shape.rowMajor_val_two, Shape.rowMajor_val_four]
    show (s.val * 2 + b.val) * 1024 + (h.val * 64 + d.val) = ((s.val * 2 + b.val) * 16 + h.val) * 64 + d.val
    omega)).trans ?_)
  show (∑ k : Fin 1024, shapeCast Cert.KernelIdeal.S4096x1024 x0 _ (ix2 r k) * x4 (ix2 n k))
      + shapeCast Cert.KernelIdeal.S1x1024 x5 _ (ix2 (0 : Fin 1) n) = _
  have ex : ∀ k : Fin 1024, shapeCast Cert.KernelIdeal.S4096x1024 x0 Cert.KernelIdeal.Facts₀.shapeCasts_S2048x2x1024_S4096x1024 (ix2 r k)
      = x0 (lidx_main_v0 (idx_main_v4 (ix4 s b h d)) k) := fun k =>
    shapeCast_apply x0 _ (ix2 r k) _ (by
      rw [Shape.rowMajor_val_two, Shape.rowMajor_val_three]
      have hk : k.val < 1024 := k.isLt
      show ((((s.val * 2 + b.val) * 16 + h.val) * 64 + d.val) / 2048 * 2 + (((s.val * 2 + b.val) * 16 + h.val) * 64 + d.val) / 1024 % 2) * 1024 + k.val
        = (s.val * 2 + b.val) * 1024 + k.val
      omega)
  have ew : ∀ k : Fin 1024, ix2 n k = ridx_main_v0 (idx_main_v4 (ix4 s b h d)) k := fun k => funext fun a => Fin.ext (by
    match a with
    | ⟨0, _⟩ => show h.val * 64 + d.val = (((s.val * 2 + b.val) * 16 + h.val) * 64 + d.val) % 1024; omega
    | ⟨1, _⟩ => rfl)
  have eb : shapeCast Cert.KernelIdeal.S1x1024 x5 Cert.KernelIdeal.Facts₀.shapeCasts_S1024_S1x1024 (ix2 (0 : Fin 1) n)
      = x5 (idx_main_v1 (idx_main_v2 (idx_main_v4 (ix4 s b h d)))) :=
    shapeCast_apply x5 _ (ix2 (0 : Fin 1) n) _ (by
      rw [Shape.rowMajor_val_two, Shape.rowMajor_val_one]
      show (((s.val * 2 + b.val) * 16 + h.val) * 64 + d.val) % 1024 = 0 * 1024 + (h.val * 64 + d.val)
      omega)
  rw [eb]
  refine congrArg (· + _) (Finset.sum_congr rfl fun k _ => ?_)
  rw [ex k, ew k]

theorem proj_q (x0 : A3) (x4 : AW) (x5 : AB) : val_main_v5 (F := Ideal) x0 x4 x5 = Cert.KernelIdeal.Layout.proj x0 x4 x5 := by
  unfold val_main_v5 Cert.KernelIdeal.Layout.proj
  rw [layer_split]

theorem proj_k (x1 : A3) (x6 : AW) (x7 : AB) : val_main_v11 (F := Ideal) x1 x6 x7 = Cert.KernelIdeal.Layout.proj x1 x6 x7 :=
  proj_q x1 x6 x7

theorem proj_v (x2 : A3) (x8 : AW) (x9 : AB) : val_main_v17 (F := Ideal) x2 x8 x9 = Cert.KernelIdeal.Layout.proj x2 x8 x9 :=
  proj_q x2 x8 x9

/-! ## The attention weights -/

variable (x0 x1 x2 : A3) (x3 : AM) (x4 : AW) (x5 : AB) (x6 : AW) (x7 : AB) (x8 : AW) (x9 : AB) (x10 : AW) (x11 : AB)

/-- The scores. -/
theorem scores_at (b : Fin 2) (h : Fin 16) (s t : Fin 2048) :
    val_main_v23 (F := Ideal) x0 x1 x3 x4 x5 x6 x7 (ix4 b h s t)
      = scoreRow (B := 2) (S := 2048) (val_main_v5 (F := Ideal) x0 x4 x5) (val_main_v11 (F := Ideal) x1 x6 x7) x3 b h s t := by
  rw [val_main_v23_apply, val_main_v20_apply, val_main_v18_apply, val_main_v19_apply, val_main_cst_apply, val_main_v22_apply, val_main_v21_apply]
  have el : ∀ k : Fin 64, lidx_main_v18 (ix4 b h s t) k = ix4 b h s k := fun k => funext fun a => Fin.ext (by
    match a with
    | ⟨0, _⟩ => rfl
    | ⟨1, _⟩ => rfl
    | ⟨2, _⟩ => rfl
    | ⟨3, _⟩ => rfl)
  have er : ∀ k : Fin 64, ridx_main_v18 (ix4 b h s t) k = ix4 b h t k := fun k => funext fun a => Fin.ext (by
    match a with
    | ⟨0, _⟩ => rfl
    | ⟨1, _⟩ => rfl
    | ⟨2, _⟩ => rfl
    | ⟨3, _⟩ => rfl)
  have em : idx_main_v21 (idx_main_v22 (ix4 b h s t)) = ix3 b s t := funext fun a => Fin.ext (by
    match a with
    | ⟨0, _⟩ => rfl
    | ⟨1, _⟩ => rfl
    | ⟨2, _⟩ => rfl)
  simp only [el, er, em]
  show Ideal.div (∑ k : Fin 64, _) (Ideal.ofBits .f32 0x41000000#32) + x3 (ix3 b s t) = _
  rw [div_eight]
  rfl

/-- Each row's largest score, floored once more at −∞. -/
theorem top_at (b : Fin 2) (h : Fin 16) (s : Fin 2048) :
    val_main_v26 (F := Ideal) x0 x1 x3 x4 x5 x6 x7 (ix3 b h s)
      = rowTop (scoreRow (B := 2) (S := 2048) (val_main_v5 (F := Ideal) x0 x4 x5) (val_main_v11 (F := Ideal) x1 x6 x7) x3 b h s) := by
  rw [val_main_v26_apply, val_main_v25_apply, val_main_cst_1_apply]
  have hred : S2x16x2048x2048.Reduces [3] S2x16x2048 := by decide
  have e24 : val_main_v24 (F := Ideal) x0 x1 x3 x4 x5 x6 x7 (ix3 b h s)
      = rowTop (scoreRow (B := 2) (S := 2048) (val_main_v5 (F := Ideal) x0 x4 x5) (val_main_v11 (F := Ideal) x1 x6 x7) x3 b h s) := by
    unfold val_main_v24
    refine (Host.reduce_eq_fold_single (s := S2x16x2048x2048) (t := S2x16x2048) (u := S_) (FloatOps.maximumf (F := Ideal) (φ := .f32))
      (val_main_v23 (F := Ideal) x0 x1 x3 x4 x5 x6 x7 : S2x16x2048x2048.Idx → Ideal .f32) (val_main_cst_0 (F := Ideal) : S_.Idx → Ideal .f32)
      reducesTo_S2x16x2048x2048_S2x16x2048_d3 hred h_S_ (ix3 b h s)).trans ?_
    have e : (val_main_v23 (F := Ideal) x0 x1 x3 x4 x5 x6 x7 ∘ hred.lift (ix3 b h s))
        = scoreRow (B := 2) (S := 2048) (val_main_v5 (F := Ideal) x0 x4 x5) (val_main_v11 (F := Ideal) x1 x6 x7) x3 b h s :=
      funext fun t => (congrArg (val_main_v23 (F := Ideal) x0 x1 x3 x4 x5 x6 x7) (funext fun a => Fin.ext (by
        match a with
        | ⟨0, _⟩ => rfl
        | ⟨1, _⟩ => rfl
        | ⟨2, _⟩ => rfl
        | ⟨3, _⟩ => rfl) : hred.lift (ix3 b h s) t = ix4 b h s t)).trans (scores_at x0 x1 x3 x4 x5 x6 x7 b h s t)
    rw [e]
    rfl
  rw [e24]
  exact max_bottom _

/-- The shifted scores, exponentiated. -/
theorem exp_at (b : Fin 2) (h : Fin 16) (s t : Fin 2048) :
    val_main_v30 (F := Ideal) x0 x1 x3 x4 x5 x6 x7 (ix4 b h s t)
      = Ideal.exp (scoreRow (B := 2) (S := 2048) (val_main_v5 (F := Ideal) x0 x4 x5) (val_main_v11 (F := Ideal) x1 x6 x7) x3 b h s t
          - rowTop (scoreRow (B := 2) (S := 2048) (val_main_v5 (F := Ideal) x0 x4 x5) (val_main_v11 (F := Ideal) x1 x6 x7) x3 b h s)) := by
  rw [val_main_v30_apply, val_main_v29_apply, val_main_v28_apply, val_main_v27_apply]
  have e27 : idx_main_v27 (idx_main_v28 (ix4 b h s t)) = ix3 b h s := funext fun a => Fin.ext (by
    match a with
    | ⟨0, _⟩ => rfl
    | ⟨1, _⟩ => rfl
    | ⟨2, _⟩ => rfl)
  rw [e27, scores_at, top_at]
  rfl

/-- The weights. -/
theorem weights_eq :
    val_main_v34 (F := Ideal) x0 x1 x3 x4 x5 x6 x7
      = weights (B := 2) (S := 2048) (val_main_v5 (F := Ideal) x0 x4 x5) (val_main_v11 (F := Ideal) x1 x6 x7) x3 := by
  funext i
  obtain ⟨b, h, s, t, rfl⟩ : ∃ (b : Fin 2) (h : Fin 16) (s t : Fin 2048), i = ix4 b h s t := ⟨i 0, i 1, i 2, i 3, eq_ix4 i⟩
  rw [weights_apply, val_main_v34_apply, val_main_v33_apply, val_main_v32_apply, val_main_v31_apply, val_main_cst_2_apply, exp_at]
  have e31 : ∀ k : Fin 2048, idx_main_v31 (idx_main_v32 (idx_main_v33 (ix4 b h s t))) k = ix4 b h s k := fun k => funext fun a => Fin.ext (by
    match a with
    | ⟨0, _⟩ => rfl
    | ⟨1, _⟩ => rfl
    | ⟨2, _⟩ => rfl
    | ⟨3, _⟩ => rfl)
  simp only [e31, exp_at]
  show Ideal.div _ (Ideal.ofBits .f32 0x00000000#32 + _) = _
  rw [Ideal.ofBits_zero_f32, zero_add]
  rfl

/-! ## The two results -/

/-- The attention output. -/
theorem attn_eq :
    val_main_v35 (F := Ideal) x0 x1 x2 x3 x4 x5 x6 x7 x8 x9
      = attnOut (B := 2) (S := 2048) (val_main_v5 (F := Ideal) x0 x4 x5) (val_main_v11 (F := Ideal) x1 x6 x7) (val_main_v17 (F := Ideal) x2 x8 x9) x3 := by
  funext i
  obtain ⟨b, h, s, d, rfl⟩ : ∃ (b : Fin 2) (h : Fin 16) (s : Fin 2048) (d : Fin 64), i = ix4 b h s d := ⟨i 0, i 1, i 2, i 3, eq_ix4 i⟩
  rw [val_main_v35_apply, weights_eq, attnOut_apply]
  refine Finset.sum_congr rfl fun k _ => ?_
  have el : lidx_main_v35 (ix4 b h s d) k = ix4 b h s k := funext fun a => Fin.ext (by
    match a with
    | ⟨0, _⟩ => rfl
    | ⟨1, _⟩ => rfl
    | ⟨2, _⟩ => rfl
    | ⟨3, _⟩ => rfl)
  have er : ridx_main_v35 (ix4 b h s d) k = ix4 b h k d := funext fun a => Fin.ext (by
    match a with
    | ⟨0, _⟩ => rfl
    | ⟨1, _⟩ => rfl
    | ⟨2, _⟩ => rfl
    | ⟨3, _⟩ => rfl)
  rw [el, er, weights_apply]

/-- THE SECOND RESULT: the weights averaged over the heads. -/
theorem mean_eq :
    val_main_v44 (F := Ideal) x0 x1 x3 x4 x5 x6 x7
      = attnMean (B := 2) (S := 2048) (Cert.KernelIdeal.Layout.proj x0 x4 x5) (Cert.KernelIdeal.Layout.proj x1 x6 x7) x3 := by
  rw [← proj_q, ← proj_k]
  funext i
  obtain ⟨b, s, t, rfl⟩ : ∃ (b : Fin 2) (s t : Fin 2048), i = ix3 b s t := ⟨i 0, i 1, i 2, eq_ix3 i⟩
  rw [attnMean_apply, val_main_v44_apply, val_main_v43_apply, val_main_cst_4_apply, val_main_v42_apply, val_main_cst_3_apply, weights_eq]
  have e42 : ∀ k : Fin 16, idx_main_v42 (ix3 b s t) k = ix4 b k s t := fun k => funext fun a => Fin.ext (by
    match a with
    | ⟨0, _⟩ => rfl
    | ⟨1, _⟩ => rfl
    | ⟨2, _⟩ => rfl
    | ⟨3, _⟩ => rfl)
  simp only [e42, weights_apply]
  show Ideal.div (Ideal.ofBits .f32 0x00000000#32 + _) (Ideal.ofBits .f32 0x41800000#32) = _
  rw [Ideal.ofBits_zero_f32, zero_add, div_sixteen]

/-- THE FIRST RESULT: the heads merged and put through the last layer. -/
theorem out_eq :
    val_main_v41 (F := Ideal) x0 x1 x2 x3 x4 x5 x6 x7 x8 x9 x10 x11
      = Cert.KernelIdeal.Layout.merge (attnOut (B := 2) (S := 2048) (Cert.KernelIdeal.Layout.proj x0 x4 x5) (Cert.KernelIdeal.Layout.proj x1 x6 x7)
          (Cert.KernelIdeal.Layout.proj x2 x8 x9) x3) x10 x11 := by
  rw [← proj_q, ← proj_k, ← proj_v, ← attn_eq]
  funext i
  obtain ⟨s, b, e, rfl⟩ : ∃ (s : Fin 2048) (b : Fin 2) (e : Fin 1024), i = ix3 s b e := ⟨i 0, i 1, i 2, eq_ix3 i⟩
  have hs : s.val < 2048 := s.isLt
  have hb : b.val < 2 := b.isLt
  have he : e.val < 1024 := e.isLt
  let r : Fin 4096 := ⟨s.val * 2 + b.val, by omega⟩
  rw [val_main_v41_apply, val_main_v38_apply, val_main_v40_apply, val_main_v39_apply]
  unfold Cert.KernelIdeal.Layout.merge
  refine Eq.symm ((shapeCast_apply _ _ (ix3 s b e) (ix2 r e) (by
    rw [Shape.rowMajor_val_two, Shape.rowMajor_val_three]
    show (s.val * 2 + b.val) * 1024 + e.val = (s.val * 2 + b.val) * 1024 + e.val
    rfl)).trans ?_)
  show (∑ k : Fin 1024, shapeCast Cert.KernelIdeal.S4096x1024 (transpose Cert.KernelIdeal.S2048x2x16x64 [2, 0, 1, 3]
        (val_main_v35 (F := Ideal) x0 x1 x2 x3 x4 x5 x6 x7 x8 x9) _) _ (ix2 r k) * x10 (ix2 e k))
      + shapeCast Cert.KernelIdeal.S1x1024 x11 _ (ix2 (0 : Fin 1) e) = _
  have eb : shapeCast Cert.KernelIdeal.S1x1024 x11 Cert.KernelIdeal.Facts₀.shapeCasts_S1024_S1x1024 (ix2 (0 : Fin 1) e)
      = x11 (idx_main_v39 (idx_main_v40 (ix3 s b e))) :=
    shapeCast_apply x11 _ (ix2 (0 : Fin 1) e) _ (by
      rw [Shape.rowMajor_val_two, Shape.rowMajor_val_one]
      show e.val = 0 * 1024 + e.val
      omega)
  rw [eb]
  refine congrArg (· + _) (Finset.sum_congr rfl fun k _ => ?_)
  have hk : k.val < 1024 := k.isLt
  have ew : ix2 e k = ridx_main_v38 (ix3 s b e) k := funext fun a => Fin.ext (by
    match a with
    | ⟨0, _⟩ => rfl
    | ⟨1, _⟩ => rfl)
  rw [ew]
  refine congrArg (· * _) ?_
  -- both sides read the transposed attention output at the entry whose row-major position is (2·s + b)·1024 + k
  let j : Cert.KernelIdeal.S2048x2x16x64.Idx := ix4 s b (⟨k.val / 64, by omega⟩ : Fin 16) (⟨k.val % 64, by omega⟩ : Fin 64)
  refine (shapeCast_apply _ _ (ix2 r k) j (by
    rw [Shape.rowMajor_val_four, Shape.rowMajor_val_two]
    show ((s.val * 2 + b.val) * 16 + k.val / 64) * 64 + k.val % 64 = (s.val * 2 + b.val) * 1024 + k.val
    omega)).trans ?_
  unfold val_main_v37 val_main_v36
  refine Eq.symm (shapeCast_apply _ _ (lidx_main_v38 (ix3 s b e) k) j (by
    rw [Shape.rowMajor_val_four, Shape.rowMajor_val_three]
    show ((s.val * 2 + b.val) * 16 + k.val / 64) * 64 + k.val % 64 = (s.val * 2 + b.val) * 1024 + k.val
    omega))

end Cert.ReferenceIdeal.RefValue

end
-- ==== Proof.lean ====
/-
  Multi-head attention as five kernel regions against its jnp reference: the certificate's claims.

  The kernel runs three linear layers on the `4096` token rows in blocks of 512 rows, splits the results into sixteen
  heads, runs scaled dot-product attention per batch and block of 64 query rows over all 2048 keys (each row's softmax
  in one piece), averages the attention weights over the heads, merges the heads and runs the last linear layer. The
  reference does the same on whole arrays. On the extended reals both compute, entry by entry, the same sums, maxima,
  exponentials and quotients of the same entries of the arguments: the kernel's tiling only selects which rows a grid point
  handles, the changes of float format are the identity, a matrix-unit product from zero is the reference's contraction,
  multiplying by 0.125 or 0.0625 is dividing by 8 or 16, and flooring a maximum at −∞ changes nothing. No entry needs to be
  finite for any of this, so the precondition is not opened.

  The three frames are the generated ones (the reference's is its generated run with the results dropped); the ideal pass
  rewrote nothing, so `preserves` is trivial; `algebraic` puts the kernel's run (its results read back through the
  regions and host operations to whole-array functions of the arguments) beside the reference's run (its composed term
  read as the same functions).
-/
import proofs.«174445_j41566693491436_1_alg».proof.Defs
import proofs.«174445_j41566693491436_1_alg».proof.Proof.Gen.Kernel
import proofs.«174445_j41566693491436_1_alg».proof.Proof.Gen.Kernel.Skeleton
import proofs.«174445_j41566693491436_1_alg».proof.Proof.Gen.Kernel.Launch
import proofs.«174445_j41566693491436_1_alg».proof.Proof.Gen.Kernel.Points
import proofs.«174445_j41566693491436_1_alg».proof.Proof.Gen.Kernel.Frame
import proofs.«174445_j41566693491436_1_alg».proof.Proof.Gen.KernelIdeal
import proofs.«174445_j41566693491436_1_alg».proof.Proof.Gen.KernelIdeal.Skeleton
import proofs.«174445_j41566693491436_1_alg».proof.Proof.Gen.KernelIdeal.Launch
import proofs.«174445_j41566693491436_1_alg».proof.Proof.Gen.KernelIdeal.Points
import proofs.«174445_j41566693491436_1_alg».proof.Proof.Gen.KernelIdeal.Frame
import proofs.«174445_j41566693491436_1_alg».proof.Proof.Gen.ReferenceIdeal
import proofs.«174445_j41566693491436_1_alg».proof.Proof.Gen.ReferenceIdeal.Run
import proofs.«174445_j41566693491436_1_alg».proof.Proof.Gen.ReferenceIdeal.Read
import proofs.«174445_j41566693491436_1_alg».proof.Proof.Gen.Pre_finite_inputs
import proofs.«174445_j41566693491436_1_alg».proof.Proof.KernelRun
import proofs.«174445_j41566693491436_1_alg».proof.Proof.KernelValue
import proofs.«174445_j41566693491436_1_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Cert.Mha

/-- The layer's output, from device `c`'s twelve argument arrays. -/
def outOf (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v20) :=
  Cert.KernelIdeal.Layout.merge (attnOut (B := 2) (S := 2048) (Cert.KernelIdeal.Layout.proj (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (Cert.KernelIdeal.Layout.proj (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (Cert.KernelIdeal.Layout.proj (m ((c.tc : Thread Cert.KernelIdeal.nD Cert.KernelIdeal.τ).loc Cert.KernelIdeal.main_arg2)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) (m ((c.tc : Thread Cert.KernelIdeal.nD Cert.KernelIdeal.τ).loc Cert.KernelIdeal.main_arg3))) (m ((c.tc : Thread Cert.KernelIdeal.nD Cert.KernelIdeal.τ).loc Cert.KernelIdeal.main_arg10)) (m ((c.tc : Thread Cert.KernelIdeal.nD Cert.KernelIdeal.τ).loc Cert.KernelIdeal.main_arg11))

/-- The attention weights averaged over the heads, from device `c`'s argument arrays. -/
def meanOf (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v15_1) :=
  attnMean (B := 2) (S := 2048) (Cert.KernelIdeal.Layout.proj (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) (Cert.KernelIdeal.Layout.proj (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg3))

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- Both idealized programs end with the layer's output and the head-averaged weights of the same arguments. -/
theorem algebraic : Cert.algebraic_KernelIdeal_ReferenceIdeal := by
  intro m ρ m' ρ' _ hagree
  refine ⟨outOf m, meanOf m, ?_, ?_⟩
  · exact (θ_run Cert.KernelIdeal.defs _ _).mono
      (fun r h c => ⟨(h c).1.trans (Cert.KernelIdeal.Walk.out_eq m ρ c), (h c).2.1.trans (Cert.KernelIdeal.Walk.mean_eq m ρ c), (h c).2.2⟩)
      (Cert.KernelIdeal.Run.run_results m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11⟩ := hagree c
      rw [Cert.ReferenceIdeal.Read.val_main_v41_eq, Cert.ReferenceIdeal.RefValue.out_eq, h0, h1, h2, h3, h4, h5, h6, h7, h8, h9, h10, h11]
      rfl
    · obtain ⟨h0, h1, h2, h3, h4, h5, h6, h7, h8, h9, h10, h11⟩ := hagree c
      rw [Cert.ReferenceIdeal.Read.val_main_v44_eq, Cert.ReferenceIdeal.RefValue.mean_eq, h0, h1, h3, h4, h5, h6, h7]
      rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
